-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x32 : Shape := ⟨2, ![1600000, 32]⟩
abbrev S160x128 : Shape := ⟨2, ![160, 128]⟩
abbrev S128 : Shape := ⟨1, ![128]⟩
abbrev S160x64 : Shape := ⟨2, ![160, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S160x128 : S_.BroadcastsInDim S160x128 (![] : Fin 0 → Fin S160x128.rank)
  reducesTo_S160x128_S_d0_1 : S160x128.ReducesTo [0, 1] S_
  bcast_S_S128 : S_.BroadcastsInDim S128 (![] : Fin 0 → Fin S128.rank)
  reducesTo_S128_S_d0 : S128.ReducesTo [0] S_
  bcast_S_S160x64 : S_.BroadcastsInDim S160x64 (![] : Fin 0 → Fin S160x64.rank)
  reducesTo_S160x64_S_d0_1 : S160x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S160x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S160x64 .f32 := Host.absf main_arg5
  let main_cst_6 : FVec F S_ .f32 := constant S_ .f32 0x7F800000#32
  let main_v20 : FVec F S160x64 .f32 := broadcastInDim S160x64 ![] bcast_S_S160x64 main_cst_6
  let main_v21 : IVec S160x64 1 := cmpf .olt main_v19 main_v20
  let main_c_7 : IVec S_ 1 := constantI S_ 1 1#1
  let main_v22 : IVec S_ 1 := (fun x v => Host.reduce IntOp.andi x v reducesTo_S160x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000x32 .f32) (main_arg3 : FVec F S160x128 .f32) (main_arg4 : FVec F S128 .f32) (main_arg5 : FVec F S160x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S160x128 .f32 := Host.absf main_arg3
  let main_cst_2 : FVec F S_ .f32 := constant S_ .f32 0x7F800000#32
  let main_v10 : FVec F S160x128 .f32 := broadcastInDim S160x128 ![] bcast_S_S160x128 main_cst_2
  let main_v11 : IVec S160x128 1 := cmpf .olt main_v9 main_v10
  let main_c_3 : IVec S_ 1 := constantI S_ 1 1#1
  let main_v12 : IVec S_ 1 := (fun x v => Host.reduce IntOp.andi x v reducesTo_S160x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000x32 : Shape := ⟨2, ![1600000, 32]⟩
abbrev S160x128 : Shape := ⟨2, ![160, 128]⟩
abbrev S128 : Shape := ⟨1, ![128]⟩
abbrev S160x64 : Shape := ⟨2, ![160, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000x32 : Shape := ⟨2, ![100000, 32]⟩
abbrev S1600000x1 : Shape := ⟨2, ![1600000, 1]⟩
abbrev S100000 : Shape := ⟨1, ![100000]⟩
abbrev S1700000 : Shape := ⟨1, ![1700000]⟩
abbrev S1700000x1 : Shape := ⟨2, ![1700000, 1]⟩
abbrev S128x128 : Shape := ⟨2, ![128, 128]⟩
abbrev S32x128 : Shape := ⟨2, ![32, 128]⟩
abbrev S4000x128 : Shape := ⟨2, ![4000, 128]⟩
abbrev S4000x32 : Shape := ⟨2, ![4000, 32]⟩
abbrev S1700000x128 : Shape := ⟨2, ![1700000, 128]⟩
abbrev S13600x128 : Shape := ⟨2, ![13600, 128]⟩
abbrev S13600x1 : Shape := ⟨2, ![13600, 1]⟩
abbrev S1x128 : Shape := ⟨2, ![1, 128]⟩
abbrev S128x64 : Shape := ⟨2, ![128, 64]⟩
abbrev S32x64 : Shape := ⟨2, ![32, 64]⟩
abbrev S100000x64 : Shape := ⟨2, ![100000, 64]⟩
abbrev S4000x64 : Shape := ⟨2, ![4000, 64]⟩
abbrev S1700000x64 : Shape := ⟨2, ![1700000, 64]⟩
abbrev S13600x64 : Shape := ⟨2, ![13600, 64]⟩
abbrev S1x64 : Shape := ⟨2, ![1, 64]⟩

abbrev nBuf : Space → Nat
  | .hbm => 89
  | .vmem => 38
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x32, .f32⟩
  | .hbm, ⟨3, _⟩ => ⟨S160x128, .f32⟩
  | .hbm, ⟨4, _⟩ => ⟨S128, .f32⟩
  | .hbm, ⟨5, _⟩ => ⟨S160x64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S100000x32, .f32⟩
  | .hbm, ⟨13, _⟩ => ⟨S1600000x1, .i32⟩
  | .hbm, ⟨14, _⟩ => ⟨S100000x32, .f32⟩
  | .hbm, ⟨15, _⟩ => ⟨S100000, .i32⟩
  | .hbm, ⟨16, _⟩ => ⟨S1700000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S1700000x1, .f32⟩
  | .hbm, ⟨51, _⟩ => ⟨S128x128, .f32⟩
  | .hbm, ⟨52, _⟩ => ⟨S32x128, .f32⟩
  | .hbm, ⟨53, _⟩ => ⟨S100000x128, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S128x64, .f32⟩
  | .hbm, ⟨71, _⟩ => ⟨S32x64, .f32⟩
  | .hbm, ⟨72, _⟩ => ⟨S100000x64, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x64, .f32⟩
  | .hbm, ⟨82, _⟩ => ⟨S1700000x64, .f32⟩
  | .hbm, ⟨83, _⟩ => ⟨S_, .f32⟩
  | .hbm, ⟨84, _⟩ => ⟨S100000x64, .f32⟩
  | .hbm, ⟨85, _⟩ => ⟨S1700000x1, .i32⟩
  | .hbm, ⟨86, _⟩ => ⟨S100000x64, .f32⟩
  | .hbm, ⟨87, _⟩ => ⟨S1x64, .f32⟩
  | .hbm, ⟨88, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S4000x32, .f32⟩
  | .local _ .vmem, ⟨3, _⟩ => ⟨S4000x32, .f32⟩
  | .local _ .vmem, ⟨4, _⟩ => ⟨S128x128, .f32⟩
  | .local _ .vmem, ⟨5, _⟩ => ⟨S32x128, .f32⟩
  | .local _ .vmem, ⟨6, _⟩ => ⟨S4000x128, .f32⟩
  | .local _ .vmem, ⟨7, _⟩ => ⟨S4000x128, .f32⟩
  | .local _ .vmem, ⟨8, _⟩ => ⟨S13600x128, .f32⟩
  | .local _ .vmem, ⟨9, _⟩ => ⟨S13600x128, .f32⟩
  | .local _ .vmem, ⟨10, _⟩ => ⟨S13600x1, .f32⟩
  | .local _ .vmem, ⟨11, _⟩ => ⟨S13600x1, .f32⟩
  | .local _ .vmem, ⟨12, _⟩ => ⟨S13600x128, .f32⟩
  | .local _ .vmem, ⟨13, _⟩ => ⟨S13600x128, .f32⟩
  | .local _ .vmem, ⟨14, _⟩ => ⟨S4000x128, .f32⟩
  | .local _ .vmem, ⟨15, _⟩ => ⟨S4000x128, .f32⟩
  | .local _ .vmem, ⟨16, _⟩ => ⟨S1x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x32, .f32⟩
  | .local _ .vmem, ⟨22, _⟩ => ⟨S4000x32, .f32⟩
  | .local _ .vmem, ⟨23, _⟩ => ⟨S128x64, .f32⟩
  | .local _ .vmem, ⟨24, _⟩ => ⟨S32x64, .f32⟩
  | .local _ .vmem, ⟨25, _⟩ => ⟨S4000x64, .f32⟩
  | .local _ .vmem, ⟨26, _⟩ => ⟨S4000x64, .f32⟩
  | .local _ .vmem, ⟨27, _⟩ => ⟨S13600x64, .f32⟩
  | .local _ .vmem, ⟨28, _⟩ => ⟨S13600x64, .f32⟩
  | .local _ .vmem, ⟨29, _⟩ => ⟨S13600x1, .f32⟩
  | .local _ .vmem, ⟨30, _⟩ => ⟨S13600x1, .f32⟩
  | .local _ .vmem, ⟨31, _⟩ => ⟨S13600x64, .f32⟩
  | .local _ .vmem, ⟨32, _⟩ => ⟨S13600x64, .f32⟩
  | .local _ .vmem, ⟨33, _⟩ => ⟨S4000x64, .f32⟩
  | .local _ .vmem, ⟨34, _⟩ => ⟨S4000x64, .f32⟩
  | .local _ .vmem, ⟨35, _⟩ => ⟨S1x64, .f32⟩
  | .local _ .vmem, ⟨36, _⟩ => ⟨S4000x64, .f32⟩
  | .local _ .vmem, ⟨37, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_7 : Ref sig .tc := ⟨.hbm, 54, rfl⟩
abbrev main_v38 : Ref sig .tc := ⟨.hbm, 55, rfl⟩
abbrev main_v39 : Ref sig .tc := ⟨.hbm, 56, rfl⟩
abbrev main_c_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_10 : Ref sig .tc := ⟨.hbm, 73, rfl⟩
abbrev main_v54 : Ref sig .tc := ⟨.hbm, 74, rfl⟩
abbrev main_v55 : Ref sig .tc := ⟨.hbm, 75, rfl⟩
abbrev main_c_11 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_12 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg4_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg2_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem4_0 : DmaSem sig := 25
abbrev cc3_sem4_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem2_1 : DmaSem sig := 37

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S13600x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S13600x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S13600x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S32x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![125], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S13600x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S13600x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S13600x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S4000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000x32 : S_.BroadcastsInDim S100000x32 (![] : Fin 0 → Fin S100000x32.rank)
  bcast_S1600000_S1600000x1_0 : S1600000.BroadcastsInDim S1600000x1 (![0] : Fin 1 → Fin S1600000x1.rank)
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  slices_S160x128_S128x128_0_0 : S160x128.Slices ![0, 0] S128x128
  slices_S160x128_S32x128_128_0 : S160x128.Slices ![128, 0] S32x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S4000x32_S4000x32_0_0 : ∀ a, (![0, 0] : Fin 2 → Nat) a + S4000x32.size a ≤ S4000x32.size a
  h_S4000x32 : 0 < S4000x32.numel
  shapeCasts_S4000x32_S4000x32 : S4000x32.ShapeCasts S4000x32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S13600x1_S13600x1_0_0 : ∀ a, (![0, 0] : Fin 2 → Nat) a + S13600x1.size a ≤ S13600x1.size a
  h_S13600x1 : 0 < S13600x1.numel
  shapeCasts_S13600x1_S13600x1 : S13600x1.ShapeCasts S13600x1
  broadcasts_S13600x1_S13600x128 : S13600x1.Broadcasts S13600x128
  inb_S13600x128_S13600x128_0_0 : ∀ a, (![0, 0] : Fin 2 → Nat) a + S13600x128.size a ≤ S13600x128.size a
  h_S13600x128 : 0 < S13600x128.numel
  shapeCasts_S13600x128_S13600x128 : S13600x128.ShapeCasts S13600x128
  bcast_S_S100000x128 : S_.BroadcastsInDim S100000x128 (![] : Fin 0 → Fin S100000x128.rank)
  bcast_S128_S1x128_1 : S128.BroadcastsInDim S1x128 (![1] : Fin 1 → Fin S1x128.rank)
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  slices_S160x64_S128x64_0_0 : S160x64.Slices ![0, 0] S128x64
  slices_S160x64_S32x64_128_0 : S160x64.Slices ![128, 0] S32x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S4000x64_S4000x64_0_0 : ∀ a, (![0, 0] : Fin 2 → Nat) a + S4000x64.size a ≤ S4000x64.size a
  h_S4000x64 : 0 < S4000x64.numel
  broadcasts_S13600x1_S13600x64 : S13600x1.Broadcasts S13600x64
  inb_S13600x64_S13600x64_0_0 : ∀ a, (![0, 0] : Fin 2 → Nat) a + S13600x64.size a ≤ S13600x64.size a
  h_S13600x64 : 0 < S13600x64.numel
  shapeCasts_S13600x64_S13600x64 : S13600x64.ShapeCasts S13600x64
  bcast_S_S100000x64 : S_.BroadcastsInDim S100000x64 (![] : Fin 0 → Fin S100000x64.rank)
  bcast_S64_S1x64_1 : S64.BroadcastsInDim S1x64 (![1] : Fin 1 → Fin S1x64.rank)
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  scatter_S100000x32_S1600000x1_S1600000x32_1_0_0_1_wf : ScatterDims.WF S100000x32 S1600000x1 S1600000x32 [1] [0] [0] 1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x128_S128x128_S4000x128_1_0_0_1_n_n_wf : DotDims.WF S4000x128 S128x128 S4000x128 [1] [0] [0] [1] [] []
  dot_S4000x32_S32x128_S4000x128_1_0_0_1_n_n_wf : DotDims.WF S4000x32 S32x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x64_S4000x64_1_0_0_1_n_n_wf : DotDims.WF S4000x128 S128x64 S4000x64 [1] [0] [0] [1] [] []
  dot_S4000x32_S32x64_S4000x64_1_0_0_1_n_n_wf : DotDims.WF S4000x32 S32x64 S4000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x32.size a ≤ S100000x32.size a
  hwx0_1 : ∀ i : grid0.Coords, EltTy.bits .f32 = 32 ∨ (Rect.block (s := S100000x32) S4000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x128.size a
  hwx0_3 : ∀ i : grid0.Coords, EltTy.bits .f32 = 32 ∨ (Rect.block (s := S32x128) S32x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S100000x128.size a
  hwx0_4 : ∀ i : grid0.Coords, EltTy.bits .f32 = 32 ∨ (Rect.block (s := S100000x128) S4000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S13600x128.size a ≤ S1700000x128.size a
  hwx1_0 : ∀ i : grid1.Coords, EltTy.bits .f32 = 32 ∨ (Rect.block (s := S1700000x128) S13600x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S13600x1.size a ≤ S1700000x1.size a
  hwx1_1 : ∀ i : grid1.Coords, EltTy.bits .f32 = 32 ∨ (Rect.block (s := S1700000x1) S13600x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S13600x128.size a ≤ S1700000x128.size a
  hwx1_2 : ∀ i : grid1.Coords, EltTy.bits .f32 = 32 ∨ (Rect.block (s := S1700000x128) S13600x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x32.size a ≤ S100000x32.size a
  hwx3_1 : ∀ i : grid3.Coords, EltTy.bits .f32 = 32 ∨ (Rect.block (s := S100000x32) S4000x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .f32 = 32 ∨ (Rect.block (s := S128x64) S128x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32x64.size a ≤ S32x64.size a
  hwx3_3 : ∀ i : grid3.Coords, EltTy.bits .f32 = 32 ∨ (Rect.block (s := S32x64) S32x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x64.size a ≤ S100000x64.size a
  hwx3_4 : ∀ i : grid3.Coords, EltTy.bits .f32 = 32 ∨ (Rect.block (s := S100000x64) S4000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S13600x64.size a ≤ S1700000x64.size a
  hwx4_0 : ∀ i : grid4.Coords, EltTy.bits .f32 = 32 ∨ (Rect.block (s := S1700000x64) S13600x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S13600x1.size a ≤ S1700000x1.size a
  hwx4_1 : ∀ i : grid4.Coords, EltTy.bits .f32 = 32 ∨ (Rect.block (s := S1700000x1) S13600x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S13600x64.size a ≤ S1700000x64.size a
  hwx4_2 : ∀ i : grid4.Coords, EltTy.bits .f32 = 32 ∨ (Rect.block (s := S1700000x64) S13600x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x64.size a ≤ S100000x64.size a
  hwx5_0 : ∀ i : grid5.Coords, EltTy.bits .f32 = 32 ∨ (Rect.block (s := S100000x64) S4000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x64.size a ≤ S100000x64.size a
  hwx5_2 : ∀ i : grid5.Coords, EltTy.bits .f32 = 32 ∨ (Rect.block (s := S100000x64) S4000x64.size (cc5_transform_2 i) (hinb5_2 i)).WholeWords (EltTy.packing .f32)

variable [Facts₀]

def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x32_S32x128_S4000x128_1_0_0_1_n_n : DotDims S4000x32 S32x128 S4000x128 where
  lhsContracting := [1]
  rhsContracting := [0]
  lhsNonContracting := [0]
  rhsNonContracting := [1]
  lhsBatch := []
  rhsBatch := []
  wf := dot_S4000x32_S32x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x32_S32x64_S4000x64_1_0_0_1_n_n : DotDims S4000x32 S32x64 S4000x64 where
  lhsContracting := [1]
  rhsContracting := [0]
  lhsNonContracting := [0]
  rhsNonContracting := [1]
  lhsBatch := []
  rhsBatch := []
  wf := dot_S4000x32_S32x64_S4000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S4000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S32x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v44) S13600x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S13600x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S13600x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S4000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v50) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v6) S4000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v51) S128x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v52) S32x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v53) S4000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v60) S13600x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v34) S13600x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v61) S13600x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v64) S4000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v65) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v66) S4000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x32 : Shape := ⟨2, ![1600000, 32]⟩
abbrev S160x128 : Shape := ⟨2, ![160, 128]⟩
abbrev S128 : Shape := ⟨1, ![128]⟩
abbrev S160x64 : Shape := ⟨2, ![160, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000x32 : Shape := ⟨2, ![100000, 32]⟩
abbrev S1600000x1 : Shape := ⟨2, ![1600000, 1]⟩
abbrev S100000 : Shape := ⟨1, ![100000]⟩
abbrev S1700000 : Shape := ⟨1, ![1700000]⟩
abbrev S1700000x1 : Shape := ⟨2, ![1700000, 1]⟩
abbrev S100000x160 : Shape := ⟨2, ![100000, 160]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 95
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x32, .f32⟩
  | .hbm, ⟨3, _⟩ => ⟨S160x128, .f32⟩
  | .hbm, ⟨4, _⟩ => ⟨S128, .f32⟩
  | .hbm, ⟨5, _⟩ => ⟨S160x64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S100000x32, .f32⟩
  | .hbm, ⟨13, _⟩ => ⟨S1600000x1, .i32⟩
  | .hbm, ⟨14, _⟩ => ⟨S100000x32, .f32⟩
  | .hbm, ⟨15, _⟩ => ⟨S100000, .i32⟩
  | .hbm, ⟨16, _⟩ => ⟨S1700000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x160, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S100000x128, .f32⟩
  | .hbm, ⟨73, _⟩ => ⟨S100000x128, .f32⟩
  | .hbm, ⟨74, _⟩ => ⟨S100000x160, .f32⟩
  | .hbm, ⟨75, _⟩ => ⟨S100000x64, .f32⟩
  | .hbm, ⟨76, _⟩ => ⟨S_, .i32⟩
  | .hbm, ⟨77, _⟩ => ⟨S1700000, .i32⟩
  | .hbm, ⟨78, _⟩ => ⟨S1700000, .i1⟩
  | .hbm, ⟨79, _⟩ => ⟨S_, .i32⟩
  | .hbm, ⟨80, _⟩ => ⟨S1700000, .i32⟩
  | .hbm, ⟨81, _⟩ => ⟨S1700000, .i32⟩
  | .hbm, ⟨82, _⟩ => ⟨S1700000, .i32⟩
  | .hbm, ⟨83, _⟩ => ⟨S1700000x1, .i32⟩
  | .hbm, ⟨84, _⟩ => ⟨S1700000x64, .f32⟩
  | .hbm, ⟨85, _⟩ => ⟨S1700000x1, .f32⟩
  | .hbm, ⟨86, _⟩ => ⟨S1700000x64, .f32⟩
  | .hbm, ⟨87, _⟩ => ⟨S1700000x64, .f32⟩
  | .hbm, ⟨88, _⟩ => ⟨S_, .f32⟩
  | .hbm, ⟨89, _⟩ => ⟨S100000x64, .f32⟩
  | .hbm, ⟨90, _⟩ => ⟨S1700000x1, .i32⟩
  | .hbm, ⟨91, _⟩ => ⟨S100000x64, .f32⟩
  | .hbm, ⟨92, _⟩ => ⟨S1x64, .f32⟩
  | .hbm, ⟨93, _⟩ => ⟨S100000x64, .f32⟩
  | .hbm, ⟨94, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_c_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_call1_cst : Ref sig .tc := ⟨.hbm, 71, rfl⟩
abbrev main_call1_v0 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_10 : Ref sig .tc := ⟨.hbm, 76, rfl⟩
abbrev main_v55 : Ref sig .tc := ⟨.hbm, 77, rfl⟩
abbrev main_v56 : Ref sig .tc := ⟨.hbm, 78, rfl⟩
abbrev main_c_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_12 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000x32 : S_.BroadcastsInDim S100000x32 (![] : Fin 0 → Fin S100000x32.rank)
  bcast_S1600000_S1600000x1_0 : S1600000.BroadcastsInDim S1600000x1 (![0] : Fin 1 → Fin S1600000x1.rank)
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  concatenates_S100000x128_S100000x32_S100000x160_d1 : Shape.Concatenates [S100000x128, S100000x32] S100000x160 1
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000x32_S1600000x1_S1600000x32_1_0_0_1_wf : ScatterDims.WF S100000x32 S1600000x1 S1600000x32 [1] [0] [0] 1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x160_S160x128_S100000x128_1_0_0_1_n_n_wf : DotDims.WF S100000x160 S160x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x160_S160x64_S100000x64_1_0_0_1_n_n_wf : DotDims.WF S100000x160 S160x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x160_S160x128_S100000x128_1_0_0_1_n_n : DotDims S100000x160 S160x128 S100000x128 where
  lhsContracting := [1]
  rhsContracting := [0]
  lhsNonContracting := [0]
  rhsNonContracting := [1]
  lhsBatch := []
  rhsBatch := []
  wf := dot_S100000x160_S160x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x160_S160x64_S100000x64_1_0_0_1_n_n : DotDims S100000x160 S160x64 S100000x64 where
  lhsContracting := [1]
  rhsContracting := [0]
  lhsNonContracting := [0]
  rhsNonContracting := [1]
  lhsBatch := []
  rhsBatch := []
  wf := dot_S100000x160_S160x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel program's run, with its result named.

  The program is six grid launches among stretches of host operations. Along any execution the contents of the
  TensorCore's buffers at the fourteen segment boundaries are a fold from the launch memory: a host stretch applies its
  operations' pure functions, a launch replaces its output array by what its grid points wrote back and leaves every
  other buffer alone. Every weakly fair execution terminates without a fault, and at the end each unscoped buffer holds
  the last boundary's contents. Read at the result buffer this names the result array; read at the seven argument
  buffers it says they are unchanged.
-/
import proofs.«172176_j11991548690480_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result array at the last boundary's contents of its buffer, and with the
    argument arrays as launched. -/
theorem run_result : θ_run defs (onTc (τ := τ) (main (F := F))) ⟨m, fun _ => 0, ρ⟩ (fun r => ∀ c : Dev nD,
      r.2.mem ((c.tc : Thread nD τ).loc main_v66) = W14 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v66 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c)⟩)

end Cert.KernelIdeal.Result

end
-- ==== Proof.Entry.lean ====
/-
  What the first launch finds.

  Before the first launch the program's host operations compute, from the edge list and the edge attributes alone: the
  per-node sums of edge attributes, the source and target lists with one self loop per node appended, the degrees and
  their reciprocal square roots (zero where a degree is zero), the normalisation of every edge as a column, and the two
  blocks cut from the first weight. These are, operation for operation, the reference's own first stages. They are read
  off one host stretch at a time — the first stretch from the launch memory, the selection of the reciprocal square
  roots, and the stretch that gathers them at the edges' endpoints — each result being the same operation of operands
  already identified.
-/
import proofs.«172176_j11991548690480_1_alg».proof.Proof.Gen.KernelIdeal.Frame
import proofs.«172176_j11991548690480_1_alg».proof.Proof.RefReadP
import Idealize.ShloMosaic.Lib.StableHlo.Run

set_option maxRecDepth 16384

noncomputable section

namespace Cert.KernelIdeal.Entry

open Cert.KernelIdeal Cert.KernelIdeal.Gen Cert.ReferenceIdeal.ReadP
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## The first stretch, from the launch memory -/

/-- The node features are as launched. -/
theorem W1_arg0 : W1 m ρ c (Proc.devRef .tc main_arg0) = (m ((c.tc : Thread nD τ).loc main_arg0)) := by
  show StableHlo.after hostOps0 (W0 m ρ c) (Proc.devRef .tc main_arg0) = _
  after_results <;> rfl

/-- The first weight is as launched. -/
theorem W1_arg3 : W1 m ρ c (Proc.devRef .tc main_arg3) = (m ((c.tc : Thread nD τ).loc main_arg3)) := by
  show StableHlo.after hostOps0 (W0 m ρ c) (Proc.devRef .tc main_arg3) = _
  after_results <;> rfl

/-- The first bias is as launched. -/
theorem W1_arg4 : W1 m ρ c (Proc.devRef .tc main_arg4) = (m ((c.tc : Thread nD τ).loc main_arg4)) := by
  show StableHlo.after hostOps0 (W0 m ρ c) (Proc.devRef .tc main_arg4) = _
  after_results <;> rfl

/-- The second weight is as launched. -/
theorem W1_arg5 : W1 m ρ c (Proc.devRef .tc main_arg5) = (m ((c.tc : Thread nD τ).loc main_arg5)) := by
  show StableHlo.after hostOps0 (W0 m ρ c) (Proc.devRef .tc main_arg5) = _
  after_results <;> rfl

/-- The second bias is as launched. -/
theorem W1_arg6 : W1 m ρ c (Proc.devRef .tc main_arg6) = (m ((c.tc : Thread nD τ).loc main_arg6)) := by
  show StableHlo.after hostOps0 (W0 m ρ c) (Proc.devRef .tc main_arg6) = _
  after_results <;> rfl

/-- The per-node sums of edge attributes. -/
theorem W1_v6 : W1 m ρ c (Proc.devRef .tc main_v6) = val_main_v6 (F := Ideal) (m ((c.tc : Thread nD τ).loc main_arg1)) (m ((c.tc : Thread nD τ).loc main_arg2)) := by
  show StableHlo.after hostOps0 (W0 m ρ c) (Proc.devRef .tc main_v6) = _
  after_results <;> rfl

/-- The source list with the self loops appended. -/
theorem W1_v8 : W1 m ρ c (Proc.devRef .tc main_v8) = val_main_v8 (F := Ideal) (m ((c.tc : Thread nD τ).loc main_arg1)) := by
  show StableHlo.after hostOps0 (W0 m ρ c) (Proc.devRef .tc main_v8) = _
  after_results <;> rfl

/-- The target list with the self loops appended. -/
theorem W1_v9 : W1 m ρ c (Proc.devRef .tc main_v9) = val_main_v9 (F := Ideal) (m ((c.tc : Thread nD τ).loc main_arg1)) := by
  show StableHlo.after hostOps0 (W0 m ρ c) (Proc.devRef .tc main_v9) = _
  after_results <;> rfl

/-- Where the degree is positive. -/
theorem W1_v15 : W1 m ρ c (Proc.devRef .tc main_v15) = val_main_v15 (F := Ideal) (m ((c.tc : Thread nD τ).loc main_arg1)) := by
  show StableHlo.after hostOps0 (W0 m ρ c) (Proc.devRef .tc main_v15) = _
  after_results <;> rfl

/-- The reciprocal square roots of the degrees. -/
theorem W1_v16 : W1 m ρ c (Proc.devRef .tc main_v16) = val_main_v16 (F := Ideal) (m ((c.tc : Thread nD τ).loc main_arg1)) := by
  show StableHlo.after hostOps0 (W0 m ρ c) (Proc.devRef .tc main_v16) = _
  after_results <;> rfl

/-- The zero vector. -/
theorem W1_v17 : W1 m ρ c (Proc.devRef .tc main_v17) = val_main_v17 (F := Ideal) := by
  show StableHlo.after hostOps0 (W0 m ρ c) (Proc.devRef .tc main_v17) = _
  after_results <;> rfl

/-! ## The selection: the reciprocal square root where the degree is positive, zero elsewhere -/

/-- The one operation of this stretch, over any contents it starts from: the selection of the second operand where the
    first holds and of the third elsewhere. -/
theorem where_result (U : Valuation τ sig (Elt Ideal)) :
    StableHlo.after (hostOps0_1 (F := Ideal)) U (Proc.devRef .tc main_v18)
      = select (U (Proc.devRef .tc main_v15)) (U (Proc.devRef .tc main_v16)) (U (Proc.devRef .tc main_v17)) := by
  after_results
  rfl

/-- The selected reciprocal square roots. -/
theorem W2_v18 : W2 m ρ c (Proc.devRef .tc main_v18) = val_main_v18 (F := Ideal) (m ((c.tc : Thread nD τ).loc main_arg1)) := by
  refine (where_result (W1 m ρ c)).trans ?_
  rw [W1_v15 m ρ c, W1_v16 m ρ c, W1_v17 m ρ c]
  rfl

theorem W2_arg0 : W2 m ρ c (Proc.devRef .tc main_arg0) = (m ((c.tc : Thread nD τ).loc main_arg0)) := by
  have h_arg0 := W1_arg0 m ρ c
  show StableHlo.after hostOps0_1 (W1 m ρ c) (Proc.devRef .tc main_arg0) = _
  revert h_arg0
  generalize W1 m ρ c = U
  intro h_arg0
  after_results
  exact h_arg0

theorem W2_arg3 : W2 m ρ c (Proc.devRef .tc main_arg3) = (m ((c.tc : Thread nD τ).loc main_arg3)) := by
  have h_arg3 := W1_arg3 m ρ c
  show StableHlo.after hostOps0_1 (W1 m ρ c) (Proc.devRef .tc main_arg3) = _
  revert h_arg3
  generalize W1 m ρ c = U
  intro h_arg3
  after_results
  exact h_arg3

theorem W2_arg4 : W2 m ρ c (Proc.devRef .tc main_arg4) = (m ((c.tc : Thread nD τ).loc main_arg4)) := by
  have h_arg4 := W1_arg4 m ρ c
  show StableHlo.after hostOps0_1 (W1 m ρ c) (Proc.devRef .tc main_arg4) = _
  revert h_arg4
  generalize W1 m ρ c = U
  intro h_arg4
  after_results
  exact h_arg4

theorem W2_arg5 : W2 m ρ c (Proc.devRef .tc main_arg5) = (m ((c.tc : Thread nD τ).loc main_arg5)) := by
  have h_arg5 := W1_arg5 m ρ c
  show StableHlo.after hostOps0_1 (W1 m ρ c) (Proc.devRef .tc main_arg5) = _
  revert h_arg5
  generalize W1 m ρ c = U
  intro h_arg5
  after_results
  exact h_arg5

theorem W2_arg6 : W2 m ρ c (Proc.devRef .tc main_arg6) = (m ((c.tc : Thread nD τ).loc main_arg6)) := by
  have h_arg6 := W1_arg6 m ρ c
  show StableHlo.after hostOps0_1 (W1 m ρ c) (Proc.devRef .tc main_arg6) = _
  revert h_arg6
  generalize W1 m ρ c = U
  intro h_arg6
  after_results
  exact h_arg6

theorem W2_v6 : W2 m ρ c (Proc.devRef .tc main_v6) = val_main_v6 (F := Ideal) (m ((c.tc : Thread nD τ).loc main_arg1)) (m ((c.tc : Thread nD τ).loc main_arg2)) := by
  have h_v6 := W1_v6 m ρ c
  show StableHlo.after hostOps0_1 (W1 m ρ c) (Proc.devRef .tc main_v6) = _
  revert h_v6
  generalize W1 m ρ c = U
  intro h_v6
  after_results
  exact h_v6

theorem W2_v8 : W2 m ρ c (Proc.devRef .tc main_v8) = val_main_v8 (F := Ideal) (m ((c.tc : Thread nD τ).loc main_arg1)) := by
  have h_v8 := W1_v8 m ρ c
  show StableHlo.after hostOps0_1 (W1 m ρ c) (Proc.devRef .tc main_v8) = _
  revert h_v8
  generalize W1 m ρ c = U
  intro h_v8
  after_results
  exact h_v8

theorem W2_v9 : W2 m ρ c (Proc.devRef .tc main_v9) = val_main_v9 (F := Ideal) (m ((c.tc : Thread nD τ).loc main_arg1)) := by
  have h_v9 := W1_v9 m ρ c
  show StableHlo.after hostOps0_1 (W1 m ρ c) (Proc.devRef .tc main_v9) = _
  revert h_v9
  generalize W1 m ρ c = U
  intro h_v9
  after_results
  exact h_v9

/-! ## The last stretch before the first launch -/

set_option maxHeartbeats 4000000 in
/-- The normalisation of every edge, as a column: the selected values gathered at the edge's two endpoints, multiplied. -/
theorem W3_v34 : W3 m ρ c (Proc.devRef .tc main_v34) = val_main_v43 (F := Ideal) (m ((c.tc : Thread nD τ).loc main_arg1)) := by
  have h_v18 := W2_v18 m ρ c
  have h_v8 := W2_v8 m ρ c
  have h_v9 := W2_v9 m ρ c
  show StableHlo.after hostOps0_2 (W2 m ρ c) (Proc.devRef .tc main_v34) = _
  revert h_v18 h_v8 h_v9
  generalize W2 m ρ c = U
  intro h_v18 h_v8 h_v9
  after_results
  rw [h_v18, h_v8, h_v9]
  rfl

/-- Rows 0 … 127 of the first weight. -/
theorem W3_v35 : W3 m ρ c (Proc.devRef .tc main_v35) = extractStridedSlice S128x128 ![0, 0] (m ((c.tc : Thread nD τ).loc main_arg3)) slices_S160x128_S128x128_0_0 := by
  have h_arg3 := W2_arg3 m ρ c
  show StableHlo.after hostOps0_2 (W2 m ρ c) (Proc.devRef .tc main_v35) = _
  revert h_arg3
  generalize W2 m ρ c = U
  intro h_arg3
  after_results
  rw [h_arg3]

/-- Rows 128 … 159 of the first weight. -/
theorem W3_v36 : W3 m ρ c (Proc.devRef .tc main_v36) = extractStridedSlice S32x128 ![128, 0] (m ((c.tc : Thread nD τ).loc main_arg3)) slices_S160x128_S32x128_128_0 := by
  have h_arg3 := W2_arg3 m ρ c
  show StableHlo.after hostOps0_2 (W2 m ρ c) (Proc.devRef .tc main_v36) = _
  revert h_arg3
  generalize W2 m ρ c = U
  intro h_arg3
  after_results
  rw [h_arg3]

theorem W3_arg0 : W3 m ρ c (Proc.devRef .tc main_arg0) = (m ((c.tc : Thread nD τ).loc main_arg0)) := by
  have h_arg0 := W2_arg0 m ρ c
  show StableHlo.after hostOps0_2 (W2 m ρ c) (Proc.devRef .tc main_arg0) = _
  revert h_arg0
  generalize W2 m ρ c = U
  intro h_arg0
  after_results
  exact h_arg0

theorem W3_arg4 : W3 m ρ c (Proc.devRef .tc main_arg4) = (m ((c.tc : Thread nD τ).loc main_arg4)) := by
  have h_arg4 := W2_arg4 m ρ c
  show StableHlo.after hostOps0_2 (W2 m ρ c) (Proc.devRef .tc main_arg4) = _
  revert h_arg4
  generalize W2 m ρ c = U
  intro h_arg4
  after_results
  exact h_arg4

theorem W3_arg5 : W3 m ρ c (Proc.devRef .tc main_arg5) = (m ((c.tc : Thread nD τ).loc main_arg5)) := by
  have h_arg5 := W2_arg5 m ρ c
  show StableHlo.after hostOps0_2 (W2 m ρ c) (Proc.devRef .tc main_arg5) = _
  revert h_arg5
  generalize W2 m ρ c = U
  intro h_arg5
  after_results
  exact h_arg5

theorem W3_arg6 : W3 m ρ c (Proc.devRef .tc main_arg6) = (m ((c.tc : Thread nD τ).loc main_arg6)) := by
  have h_arg6 := W2_arg6 m ρ c
  show StableHlo.after hostOps0_2 (W2 m ρ c) (Proc.devRef .tc main_arg6) = _
  revert h_arg6
  generalize W2 m ρ c = U
  intro h_arg6
  after_results
  exact h_arg6

theorem W3_v6 : W3 m ρ c (Proc.devRef .tc main_v6) = val_main_v6 (F := Ideal) (m ((c.tc : Thread nD τ).loc main_arg1)) (m ((c.tc : Thread nD τ).loc main_arg2)) := by
  have h_v6 := W2_v6 m ρ c
  show StableHlo.after hostOps0_2 (W2 m ρ c) (Proc.devRef .tc main_v6) = _
  revert h_v6
  generalize W2 m ρ c = U
  intro h_v6
  after_results
  exact h_v6

theorem W3_v8 : W3 m ρ c (Proc.devRef .tc main_v8) = val_main_v8 (F := Ideal) (m ((c.tc : Thread nD τ).loc main_arg1)) := by
  have h_v8 := W2_v8 m ρ c
  show StableHlo.after hostOps0_2 (W2 m ρ c) (Proc.devRef .tc main_v8) = _
  revert h_v8
  generalize W2 m ρ c = U
  intro h_v8
  after_results
  exact h_v8

theorem W3_v9 : W3 m ρ c (Proc.devRef .tc main_v9) = val_main_v9 (F := Ideal) (m ((c.tc : Thread nD τ).loc main_arg1)) := by
  have h_v9 := W2_v9 m ρ c
  show StableHlo.after hostOps0_2 (W2 m ρ c) (Proc.devRef .tc main_v9) = _
  revert h_v9
  generalize W2 m ρ c = U
  intro h_v9
  after_results
  exact h_v9

end Cert.KernelIdeal.Entry

end
-- ==== Proof.LibMatmulPlain.lean ====
/-
  A plain matrix product into a zero accumulator, read at an entry, over the extended reals.

  For the dimension numbers `DotDims.plain M K N` (an `M × K` left operand, a `K × N` right operand, the left one's
  columns contracted with the right one's rows, no batch axis) entry `(p, q)` of the product accumulated into the
  zero matrix is `Σ_{k < K} l (p, k) * r (k, q)`: the contraction index has one coordinate, which runs over `Fin K`.
-/
import Idealize.ShloMosaic.PureOps.Ideal.Laws
import Idealize.ShloMosaic.Lib.ValueIdx

noncomputable section

open scoped BigOperators

namespace Cert.Lib

open Idealize.ShloMosaic Idealize.ShloMosaic.ValueIdx

/-- The left operand's index at output entry `(p, q)` and contraction coordinate `k` is `(p, k)`. -/
theorem plain_lhsIdx (M K N : Nat) (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index there is `(k, q)`. -/
theorem plain_rhsIdx (M K N : Nat) (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- ENTRY `(p, q)` OF A PLAIN PRODUCT INTO ZERO: the sum over `k : Fin K` of `l (p, k) * r (k, q)`. -/
theorem matmul_plain_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.Lib

end
-- ==== Proof.Linear1.lean ====
/-
  The first layer's linear map: an array times one weight block plus a second array times another, block of rows by block of rows.

  The launch walks 25 grid points; at point t it reads rows 4000·t … 4000·t + 3999 of the [100000, 128] operand and of the
  [100000, 32] operand, and the whole of the two weight blocks [128, 128] and [32, 128], and writes back, into the same rows of
  the result, the sum of the two matrix products. Over the extended reals a change of float format is the identity and a
  product accumulated into the zero matrix is the exact sum of the exact products, so entry (p, q) of what is written is
  Σ_{k < 128} x (p, k) · wa (k, q) + Σ_{k < 32} g (p, k) · wb (k, q). The 25 blocks tile the result.
-/
import proofs.«172176_j11991548690480_1_alg».proof.Proof.Gen.KernelIdeal.Frame
import proofs.«172176_j11991548690480_1_alg».proof.Proof.LibMatmulPlain
import Idealize.ShloMosaic.Lib.Pipeline.Value
import Idealize.ShloMosaic.Lib.ValueIdx

set_option maxRecDepth 16384

noncomputable section

open scoped BigOperators

namespace Cert.KernelIdeal.Linear1

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem origin2 : (![0, 0] : Fin 2 → Nat) = fun _ => 0 := funext fun a => by fin_cases a <;> rfl

/-- The array the launch leaves: entry (p, q) is the row p of the first operand against column q of the first weight block,
    plus row p of the second operand against column q of the second weight block. -/
def combined (x : S100000x128.Idx → EReal) (g : S100000x32.Idx → EReal) (wa : S128x128.Idx → EReal) (wb : S32x128.Idx → EReal) :
    S100000x128.Idx → EReal :=
  fun i => (∑ k : Fin 128, x (ix2 (⟨(i 0).val, (i 0).isLt⟩ : Fin 100000) k) * wa (ix2 k (⟨(i 1).val, (i 1).isLt⟩ : Fin 128)))
    + ∑ k : Fin 32, g (ix2 (⟨(i 0).val, (i 0).isLt⟩ : Fin 100000) k) * wb (ix2 k (⟨(i 1).val, (i 1).isLt⟩ : Fin 128))

/-- The body's stored value at entry (p, q) of its block: the two plain sums of products over the contracted axes. -/
theorem stored_apply (x0 : Vec Ideal S4000x128 .f32) (x1 : Vec Ideal S4000x32 .f32) (x2 : Vec Ideal S128x128 .f32) (x3 : Vec Ideal S32x128 .f32)
    (p : Fin 4000) (q : Fin 128) :
    k0_pay1 (F := Ideal) x0 x1 x2 x3 (ix2 p q)
      = (∑ k : Fin 128, x0 (ix2 p k) * x2 (ix2 k q)) + ∑ k : Fin 32, x1 (ix2 p k) * x3 (ix2 k q) := by
  unfold k0_pay1
  simp only [shapeCast_self]
  rw [addf_apply]
  refine congrArg₂ (α := EReal) (β := EReal) (γ := EReal) (· + ·) ?_ ?_
  · exact Cert.Lib.matmul_plain_zero_apply 4000 128 128 none _ _ p q
  · exact Cert.Lib.matmul_plain_zero_apply 4000 32 128 none _ _ p q

/-- Where the windows' blocks sit at grid point t: the two row operands' and the result's block is the t-th block of rows,
    each weight block is the whole of its array. -/
theorem block_positions : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b))

/-- What grid point t writes back is block t of `combined` of the four arrays as the launch finds them. -/
theorem flushed_eq (c : Dev nD) (t : Fin cfg0.N) :
    (dat0 (F := Ideal) V c).flushed 4 t
      = ((cfg0.win 4).blk t).view.read (Elt Ideal) (combined (V c main_arg0) (V c main_v6) (V c main_v35) (V c main_v36)) := by
  show (cfg0.win 4).cut (grid0.coords t) ((dat0 V c).after 4 t) = _
  rw [after0_4]
  unfold out0_4
  rw [View.canon_unit_zero origin2]
  simp only [View.ld_unit_zero (S := S4000x128) origin2, View.ld_unit_zero (S := S4000x32) origin2,
    View.ld_unit_zero (S := S128x128) origin2, View.ld_unit_zero (S := S32x128) origin2]
  obtain ⟨e0, e1, e2, e3, e4, e5, e6, e7, e8, e9⟩ := block_positions t
  funext j
  obtain ⟨p, q, rfl⟩ : ∃ (p : Fin 4000) (q : Fin 128), j = ix2 p q := ⟨j 0, j 1, eq_ix2 j⟩
  refine (stored_apply (iblk0 V c 0 t) (iblk0 V c 1 t) (iblk0 V c 2 t) (iblk0 V c 3 t) p q).trans ?_
  show _ = combined (V c main_arg0) (V c main_v6) (V c main_v35) (V c main_v36) (((cfg0.win 4).blk t).view.emb (ix2 p q))
  unfold combined
  refine congrArg₂ (α := EReal) (β := EReal) (γ := EReal) (· + ·) ?_ ?_
  · refine Finset.sum_congr rfl fun k _ => ?_
    refine congrArg₂ (α := EReal) (β := EReal) (γ := EReal) (· * ·) ?_ ?_
    · show V c main_arg0 (((cfg0.win 0).blk t).view.emb (ix2 p k)) = V c main_arg0 (ix2 (⟨((((cfg0.win 4).blk t).view.emb (ix2 p q)) 0).val, ((((cfg0.win 4).blk t).view.emb (ix2 p q)) 0).isLt⟩ : Fin 100000) k)
      refine congrArg _ ?_
      funext a; apply Fin.ext
      match a with
      | ⟨0, _⟩ => show win0_0.index t (0 : Fin 2) * 4000 + 1 * p.val = win0_4.index t (0 : Fin 2) * 4000 + 1 * p.val; omega
      | ⟨1, _⟩ => show win0_0.index t (1 : Fin 2) * 128 + 1 * k.val = k.val; omega
    · show V c main_v35 (((cfg0.win 2).blk t).view.emb (ix2 k q)) = V c main_v35 (ix2 k (⟨((((cfg0.win 4).blk t).view.emb (ix2 p q)) 1).val, ((((cfg0.win 4).blk t).view.emb (ix2 p q)) 1).isLt⟩ : Fin 128))
      refine congrArg _ ?_
      funext a; apply Fin.ext
      match a with
      | ⟨0, _⟩ => show win0_2.index t (0 : Fin 2) * 128 + 1 * k.val = k.val; omega
      | ⟨1, _⟩ => show win0_2.index t (1 : Fin 2) * 128 + 1 * q.val = win0_4.index t (1 : Fin 2) * 128 + 1 * q.val; omega
  · refine Finset.sum_congr rfl fun k _ => ?_
    refine congrArg₂ (α := EReal) (β := EReal) (γ := EReal) (· * ·) ?_ ?_
    · show V c main_v6 (((cfg0.win 1).blk t).view.emb (ix2 p k)) = V c main_v6 (ix2 (⟨((((cfg0.win 4).blk t).view.emb (ix2 p q)) 0).val, ((((cfg0.win 4).blk t).view.emb (ix2 p q)) 0).isLt⟩ : Fin 100000) k)
      refine congrArg _ ?_
      funext a; apply Fin.ext
      match a with
      | ⟨0, _⟩ => show win0_1.index t (0 : Fin 2) * 4000 + 1 * p.val = win0_4.index t (0 : Fin 2) * 4000 + 1 * p.val; omega
      | ⟨1, _⟩ => show win0_1.index t (1 : Fin 2) * 32 + 1 * k.val = k.val; omega
    · show V c main_v36 (((cfg0.win 3).blk t).view.emb (ix2 k q)) = V c main_v36 (ix2 k (⟨((((cfg0.win 4).blk t).view.emb (ix2 p q)) 1).val, ((((cfg0.win 4).blk t).view.emb (ix2 p q)) 1).isLt⟩ : Fin 128))
      refine congrArg _ ?_
      funext a; apply Fin.ext
      match a with
      | ⟨0, _⟩ => show win0_3.index t (0 : Fin 2) * 32 + 1 * k.val = k.val; omega
      | ⟨1, _⟩ => show win0_3.index t (1 : Fin 2) * 128 + 1 * q.val = win0_4.index t (1 : Fin 2) * 128 + 1 * q.val; omega

/-- An index of the result array lies in point t's block iff each coordinate lies in the block's range on its axis. -/
theorem mem_block (t : Fin cfg0.N) (i : S100000x128.Idx) :
    i ∈ ((cfg0.win 4).blk t).view.set ↔ ∀ a : Fin 2, win0_4.index t a * S4000x128.size a ≤ (i a).val ∧ (i a).val < win0_4.index t a * S4000x128.size a + S4000x128.size a := by
  show i ∈ ((View.whole main_v37).slice (win0_4.rect t)).set ↔ _
  rw [View.set_slice_whole, Rect.mem_set_unit]
  exact Iff.rfl

/-- Row r of the result lies in the block of grid point r / 4000: the 25 blocks of 4000 rows tile the 100000 rows. -/
theorem covered (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  have hN : grid0.N = 25 := N_0
  have ht : (i 0).val / 4000 < cfg0.N := by show (i 0).val / 4000 < grid0.N; rw [hN]; omega
  obtain ⟨e0, e1, e2, e3, e4, e5, e6, e7, e8, e9⟩ := block_positions ⟨(i 0).val / 4000, ht⟩
  refine ⟨⟨(i 0).val / 4000, ht⟩, flush0_4 _, ?_⟩
  rw [mem_block]
  intro a
  match a with
  | ⟨0, _⟩ =>
    show win0_4.index ⟨(i 0).val / 4000, ht⟩ (0 : Fin 2) * 4000 ≤ (i 0).val ∧ (i 0).val < win0_4.index ⟨(i 0).val / 4000, ht⟩ (0 : Fin 2) * 4000 + 4000
    rw [e8]; show (i 0).val / 4000 * 4000 ≤ (i 0).val ∧ (i 0).val < (i 0).val / 4000 * 4000 + 4000; omega
  | ⟨1, _⟩ =>
    show win0_4.index ⟨(i 0).val / 4000, ht⟩ (1 : Fin 2) * 128 ≤ (i 1).val ∧ (i 1).val < win0_4.index ⟨(i 0).val / 4000, ht⟩ (1 : Fin 2) * 128 + 128
    rw [e9]; omega

/-- THE RESULT ARRAY after the launch: the two matrix products, added. -/
theorem final (c : Dev nD) : (dat0 (F := Ideal) V c).arrAt 4 cfg0.N = combined (V c main_arg0) (V c main_v6) (V c main_v35) (V c main_v36) :=
  (dat0 (F := Ideal) V c).arrAt_eq_of_cover 4 (combined (V c main_arg0) (V c main_v6) (V c main_v35) (V c main_v36)) (fun t _ => flushed_eq V c t) covered

end Cert.KernelIdeal.Linear1

end
-- ==== Proof.Linear2.lean ====
/-
  The second layer's linear map: an array times one weight block plus a second array times another, block of rows by block of rows.

  The launch walks 25 grid points; at point t it reads rows 4000·t … 4000·t + 3999 of the [100000, 128] operand and of the
  [100000, 32] operand, and the whole of the two weight blocks [128, 64] and [32, 64], and writes back, into the same rows of
  the result, the sum of the two matrix products. Over the extended reals a change of float format is the identity and a
  product accumulated into the zero matrix is the exact sum of the exact products, so entry (p, q) of what is written is
  Σ_{k < 128} x (p, k) · wa (k, q) + Σ_{k < 32} g (p, k) · wb (k, q). The 25 blocks tile the result.
-/
import proofs.«172176_j11991548690480_1_alg».proof.Proof.Gen.KernelIdeal.Frame
import proofs.«172176_j11991548690480_1_alg».proof.Proof.LibMatmulPlain
import Idealize.ShloMosaic.Lib.Pipeline.Value
import Idealize.ShloMosaic.Lib.ValueIdx

set_option maxRecDepth 16384

noncomputable section

open scoped BigOperators

namespace Cert.KernelIdeal.Linear2

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem origin2 : (![0, 0] : Fin 2 → Nat) = fun _ => 0 := funext fun a => by fin_cases a <;> rfl

/-- The array the launch leaves: entry (p, q) is the row p of the first operand against column q of the first weight block,
    plus row p of the second operand against column q of the second weight block. -/
def combined (x : S100000x128.Idx → EReal) (g : S100000x32.Idx → EReal) (wa : S128x64.Idx → EReal) (wb : S32x64.Idx → EReal) :
    S100000x64.Idx → EReal :=
  fun i => (∑ k : Fin 128, x (ix2 (⟨(i 0).val, (i 0).isLt⟩ : Fin 100000) k) * wa (ix2 k (⟨(i 1).val, (i 1).isLt⟩ : Fin 64)))
    + ∑ k : Fin 32, g (ix2 (⟨(i 0).val, (i 0).isLt⟩ : Fin 100000) k) * wb (ix2 k (⟨(i 1).val, (i 1).isLt⟩ : Fin 64))

/-- The body's stored value at entry (p, q) of its block: the two plain sums of products over the contracted axes. -/
theorem stored_apply (x0 : Vec Ideal S4000x128 .f32) (x1 : Vec Ideal S4000x32 .f32) (x2 : Vec Ideal S128x64 .f32) (x3 : Vec Ideal S32x64 .f32)
    (p : Fin 4000) (q : Fin 64) :
    k3_pay1 (F := Ideal) x0 x1 x2 x3 (ix2 p q)
      = (∑ k : Fin 128, x0 (ix2 p k) * x2 (ix2 k q)) + ∑ k : Fin 32, x1 (ix2 p k) * x3 (ix2 k q) := by
  unfold k3_pay1
  simp only [shapeCast_self]
  rw [addf_apply]
  refine congrArg₂ (α := EReal) (β := EReal) (γ := EReal) (· + ·) ?_ ?_
  · exact Cert.Lib.matmul_plain_zero_apply 4000 128 64 none _ _ p q
  · exact Cert.Lib.matmul_plain_zero_apply 4000 32 64 none _ _ p q

/-- Where the windows' blocks sit at grid point t: the two row operands' and the result's block is the t-th block of rows,
    each weight block is the whole of its array. -/
theorem block_positions : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

variable (V : (c : Dev nD) → (b : Ref sig .tc) → Buf (Elt Ideal) ((c : Thread nD τ).loc b))

/-- What grid point t writes back is block t of `combined` of the four arrays as the launch finds them. -/
theorem flushed_eq (c : Dev nD) (t : Fin cfg3.N) :
    (dat3 (F := Ideal) V c).flushed 4 t
      = ((cfg3.win 4).blk t).view.read (Elt Ideal) (combined (V c main_v50) (V c main_v6) (V c main_v51) (V c main_v52)) := by
  show (cfg3.win 4).cut (grid3.coords t) ((dat3 V c).after 4 t) = _
  rw [after3_4]
  unfold out3_4
  rw [View.canon_unit_zero origin2]
  simp only [View.ld_unit_zero (S := S4000x128) origin2, View.ld_unit_zero (S := S4000x32) origin2,
    View.ld_unit_zero (S := S128x64) origin2, View.ld_unit_zero (S := S32x64) origin2]
  obtain ⟨e0, e1, e2, e3, e4, e5, e6, e7, e8, e9⟩ := block_positions t
  funext j
  obtain ⟨p, q, rfl⟩ : ∃ (p : Fin 4000) (q : Fin 64), j = ix2 p q := ⟨j 0, j 1, eq_ix2 j⟩
  refine (stored_apply (iblk3 V c 0 t) (iblk3 V c 1 t) (iblk3 V c 2 t) (iblk3 V c 3 t) p q).trans ?_
  show _ = combined (V c main_v50) (V c main_v6) (V c main_v51) (V c main_v52) (((cfg3.win 4).blk t).view.emb (ix2 p q))
  unfold combined
  refine congrArg₂ (α := EReal) (β := EReal) (γ := EReal) (· + ·) ?_ ?_
  · refine Finset.sum_congr rfl fun k _ => ?_
    refine congrArg₂ (α := EReal) (β := EReal) (γ := EReal) (· * ·) ?_ ?_
    · show V c main_v50 (((cfg3.win 0).blk t).view.emb (ix2 p k)) = V c main_v50 (ix2 (⟨((((cfg3.win 4).blk t).view.emb (ix2 p q)) 0).val, ((((cfg3.win 4).blk t).view.emb (ix2 p q)) 0).isLt⟩ : Fin 100000) k)
      refine congrArg _ ?_
      funext a; apply Fin.ext
      match a with
      | ⟨0, _⟩ => show win3_0.index t (0 : Fin 2) * 4000 + 1 * p.val = win3_4.index t (0 : Fin 2) * 4000 + 1 * p.val; omega
      | ⟨1, _⟩ => show win3_0.index t (1 : Fin 2) * 128 + 1 * k.val = k.val; omega
    · show V c main_v51 (((cfg3.win 2).blk t).view.emb (ix2 k q)) = V c main_v51 (ix2 k (⟨((((cfg3.win 4).blk t).view.emb (ix2 p q)) 1).val, ((((cfg3.win 4).blk t).view.emb (ix2 p q)) 1).isLt⟩ : Fin 64))
      refine congrArg _ ?_
      funext a; apply Fin.ext
      match a with
      | ⟨0, _⟩ => show win3_2.index t (0 : Fin 2) * 128 + 1 * k.val = k.val; omega
      | ⟨1, _⟩ => show win3_2.index t (1 : Fin 2) * 64 + 1 * q.val = win3_4.index t (1 : Fin 2) * 64 + 1 * q.val; omega
  · refine Finset.sum_congr rfl fun k _ => ?_
    refine congrArg₂ (α := EReal) (β := EReal) (γ := EReal) (· * ·) ?_ ?_
    · show V c main_v6 (((cfg3.win 1).blk t).view.emb (ix2 p k)) = V c main_v6 (ix2 (⟨((((cfg3.win 4).blk t).view.emb (ix2 p q)) 0).val, ((((cfg3.win 4).blk t).view.emb (ix2 p q)) 0).isLt⟩ : Fin 100000) k)
      refine congrArg _ ?_
      funext a; apply Fin.ext
      match a with
      | ⟨0, _⟩ => show win3_1.index t (0 : Fin 2) * 4000 + 1 * p.val = win3_4.index t (0 : Fin 2) * 4000 + 1 * p.val; omega
      | ⟨1, _⟩ => show win3_1.index t (1 : Fin 2) * 32 + 1 * k.val = k.val; omega
    · show V c main_v52 (((cfg3.win 3).blk t).view.emb (ix2 k q)) = V c main_v52 (ix2 k (⟨((((cfg3.win 4).blk t).view.emb (ix2 p q)) 1).val, ((((cfg3.win 4).blk t).view.emb (ix2 p q)) 1).isLt⟩ : Fin 64))
      refine congrArg _ ?_
      funext a; apply Fin.ext
      match a with
      | ⟨0, _⟩ => show win3_3.index t (0 : Fin 2) * 32 + 1 * k.val = k.val; omega
      | ⟨1, _⟩ => show win3_3.index t (1 : Fin 2) * 64 + 1 * q.val = win3_4.index t (1 : Fin 2) * 64 + 1 * q.val; omega

/-- An index of the result array lies in point t's block iff each coordinate lies in the block's range on its axis. -/
theorem mem_block (t : Fin cfg3.N) (i : S100000x64.Idx) :
    i ∈ ((cfg3.win 4).blk t).view.set ↔ ∀ a : Fin 2, win3_4.index t a * S4000x64.size a ≤ (i a).val ∧ (i a).val < win3_4.index t a * S4000x64.size a + S4000x64.size a := by
  show i ∈ ((View.whole main_v53).slice (win3_4.rect t)).set ↔ _
  rw [View.set_slice_whole, Rect.mem_set_unit]
  exact Iff.rfl

/-- Row r of the result lies in the block of grid point r / 4000: the 25 blocks of 4000 rows tile the 100000 rows. -/
theorem covered (i : S100000x64.Idx) : ∃ t : Fin cfg3.N, (cfg3.win 4).flush t = true ∧ i ∈ ((cfg3.win 4).blk t).view.set := by
  have hi0 : (i 0).val < 100000 := (i 0).isLt
  have hi1 : (i 1).val < 64 := (i 1).isLt
  have hN : grid3.N = 25 := N_3
  have ht : (i 0).val / 4000 < cfg3.N := by show (i 0).val / 4000 < grid3.N; rw [hN]; omega
  obtain ⟨e0, e1, e2, e3, e4, e5, e6, e7, e8, e9⟩ := block_positions ⟨(i 0).val / 4000, ht⟩
  refine ⟨⟨(i 0).val / 4000, ht⟩, flush3_4 _, ?_⟩
  rw [mem_block]
  intro a
  match a with
  | ⟨0, _⟩ =>
    show win3_4.index ⟨(i 0).val / 4000, ht⟩ (0 : Fin 2) * 4000 ≤ (i 0).val ∧ (i 0).val < win3_4.index ⟨(i 0).val / 4000, ht⟩ (0 : Fin 2) * 4000 + 4000
    rw [e8]; show (i 0).val / 4000 * 4000 ≤ (i 0).val ∧ (i 0).val < (i 0).val / 4000 * 4000 + 4000; omega
  | ⟨1, _⟩ =>
    show win3_4.index ⟨(i 0).val / 4000, ht⟩ (1 : Fin 2) * 64 ≤ (i 1).val ∧ (i 1).val < win3_4.index ⟨(i 0).val / 4000, ht⟩ (1 : Fin 2) * 64 + 64
    rw [e9]; omega

/-- THE RESULT ARRAY after the launch: the two matrix products, added. -/
theorem final (c : Dev nD) : (dat3 (F := Ideal) V c).arrAt 4 cfg3.N = combined (V c main_v50) (V c main_v6) (V c main_v51) (V c main_v52) :=
  (dat3 (F := Ideal) V c).arrAt_eq_of_cover 4 (combined (V c main_v50) (V c main_v6) (V c main_v51) (V c main_v52)) (fun t _ => flushed_eq V c t) covered

end Cert.KernelIdeal.Linear2

end
-- ==== Proof.LibColumn.lean ====
/-
  A column kept from a vector, and a column spread along rows, read at an entry.

  Summing a matrix along its rows while keeping the axis (`keepdims`) leaves an `[a]` vector viewed as an `[a, 1]`
  column; dividing the matrix by it spreads the column back to `[a, b]`. Read at an entry:
  * the `[a]` vector cast to `[a, 1]` has, at `(i, u)`, the vector's entry `i`, whatever the unit coordinate `u`;
  * the `[a, 1]` column broadcast to `[a, b]` has, at `(p, c)`, the column's entry `(p, 0)`.
-/
import Idealize.ShloMosaic.Lib.Pipeline.Value
import Idealize.ShloMosaic.Lib.ValueIdx

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.Scale1.lean ====
/-
  The first layer's message scaling: every row of an array multiplied by its own entry of a column, block of rows by block
  of rows.

  The launch walks 125 grid points; at point t it reads rows 13600·t … 13600·t + 13599 of the [1700000, 128] operand and the
  same rows of the [1700000, 1] column, and writes back, into the same rows of the result, each entry times the column's
  entry of its row. The 125 blocks tile the result, so after the launch the result array is, index by index, the operand
  times the column spread along the rows.
-/
import proofs.«172176_j11991548690480_1_alg».proof.Proof.Gen.KernelIdeal.Frame
import proofs.«172176_j11991548690480_1_alg».proof.Proof.LibColumn
import Idealize.ShloMosaic.Lib.Pipeline.Value
import Idealize.ShloMosaic.Lib.ValueIdx

set_option maxRecDepth 16384

noncomputable section

namespace Cert.KernelIdeal.Scale1

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem origin2 : (![0, 0] : Fin 2 → Nat) = fun _ => 0 := funext fun a => by fin_cases a <;> rfl

/-- The array the launch leaves: entry (p, q) of the operand times entry (p, 0) of the column. -/
def scaled (x : S1700000x128.Idx → EReal) (n : S1700000x1.Idx → EReal) : S1700000x128.Idx → EReal :=
  fun i => x i * n (ix2 (⟨(i 0).val, (i 0).isLt⟩ : Fin 1700000) (0 : Fin 1))

/-- The body's stored value at entry (p, q) of its block: the operand block's entry times the column block's entry of row p. -/
theorem stored_apply (n0 : Vec Ideal S13600x1 .f32) (x0 : Vec Ideal S13600x128 .f32) (p : Fin 13600) (q : Fin 128) :
    k1_pay1 (F := Ideal) n0 x0 (ix2 p q) = x0 (ix2 p q) * n0 (ix2 p (0 : Fin 1)) := by
  unfold k1_pay1
  simp only [shapeCast_self]
  rw [mulf_apply, Cert.Lib.broadcastTo_a1_ab_apply]

/-- Where the windows' blocks sit at grid point t: each window's block is the t-th block of rows. -/
theorem block_positions : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What grid point t writes back is block t of `scaled` of the two arrays as the launch finds them. -/
theorem flushed_eq (c : Dev nD) (t : Fin cfg1.N) :
    (dat1 (F := Ideal) V c).flushed 2 t = ((cfg1.win 2).blk t).view.read (Elt Ideal) (scaled (V c main_v44) (V c main_v34)) := by
  show (cfg1.win 2).cut (grid1.coords t) ((dat1 V c).after 2 t) = _
  rw [after1_2]
  unfold out1_2
  rw [View.canon_unit_zero origin2]
  simp only [View.ld_unit_zero (S := S13600x128) origin2, View.ld_unit_zero (S := S13600x1) origin2]
  obtain ⟨e0, e1, e2, e3, e4, e5⟩ := block_positions t
  funext j
  obtain ⟨p, q, rfl⟩ : ∃ (p : Fin 13600) (q : Fin 128), j = ix2 p q := ⟨j 0, j 1, eq_ix2 j⟩
  refine (stored_apply (iblk1 V c 1 t) (iblk1 V c 0 t) p q).trans ?_
  show _ = scaled (V c main_v44) (V c main_v34) (((cfg1.win 2).blk t).view.emb (ix2 p q))
  unfold scaled
  refine congrArg₂ (α := EReal) (β := EReal) (γ := EReal) (· * ·) ?_ ?_
  · show V c main_v44 (((cfg1.win 0).blk t).view.emb (ix2 p q)) = V c main_v44 (((cfg1.win 2).blk t).view.emb (ix2 p q))
    refine congrArg _ ?_
    funext a; apply Fin.ext
    match a with
    | ⟨0, _⟩ => show win1_0.index t (0 : Fin 2) * 13600 + 1 * p.val = win1_2.index t (0 : Fin 2) * 13600 + 1 * p.val; omega
    | ⟨1, _⟩ => show win1_0.index t (1 : Fin 2) * 128 + 1 * q.val = win1_2.index t (1 : Fin 2) * 128 + 1 * q.val; omega
  · show V c main_v34 (((cfg1.win 1).blk t).view.emb (ix2 p (0 : Fin 1))) = V c main_v34 (ix2 (⟨((((cfg1.win 2).blk t).view.emb (ix2 p q)) 0).val, ((((cfg1.win 2).blk t).view.emb (ix2 p q)) 0).isLt⟩ : Fin 1700000) (0 : Fin 1))
    refine congrArg _ ?_
    funext a; apply Fin.ext
    match a with
    | ⟨0, _⟩ => show win1_1.index t (0 : Fin 2) * 13600 + 1 * p.val = win1_2.index t (0 : Fin 2) * 13600 + 1 * p.val; omega
    | ⟨1, _⟩ => show win1_1.index t (1 : Fin 2) * 1 + 1 * 0 = 0; omega

/-- An index of the result array lies in point t's block iff each coordinate lies in the block's range on its axis. -/
theorem mem_block (t : Fin cfg1.N) (i : S1700000x128.Idx) :
    i ∈ ((cfg1.win 2).blk t).view.set ↔ ∀ a : Fin 2, win1_2.index t a * S13600x128.size a ≤ (i a).val ∧ (i a).val < win1_2.index t a * S13600x128.size a + S13600x128.size a := by
  show i ∈ ((View.whole main_v45).slice (win1_2.rect t)).set ↔ _
  rw [View.set_slice_whole, Rect.mem_set_unit]
  exact Iff.rfl

/-- Row r of the result lies in the block of grid point r / 13600: the 125 blocks of 13600 rows tile the 1700000 rows. -/
theorem covered (i : S1700000x128.Idx) : ∃ t : Fin cfg1.N, (cfg1.win 2).flush t = true ∧ i ∈ ((cfg1.win 2).blk t).view.set := by
  have hi0 : (i 0).val < 1700000 := (i 0).isLt
  have hi1 : (i 1).val < 128 := (i 1).isLt
  have hN : grid1.N = 125 := N_1
  have ht : (i 0).val / 13600 < cfg1.N := by show (i 0).val / 13600 < grid1.N; rw [hN]; omega
  obtain ⟨e0, e1, e2, e3, e4, e5⟩ := block_positions ⟨(i 0).val / 13600, ht⟩
  refine ⟨⟨(i 0).val / 13600, ht⟩, flush1_2 _, ?_⟩
  rw [mem_block]
  intro a
  match a with
  | ⟨0, _⟩ =>
    show win1_2.index ⟨(i 0).val / 13600, ht⟩ (0 : Fin 2) * 13600 ≤ (i 0).val ∧ (i 0).val < win1_2.index ⟨(i 0).val / 13600, ht⟩ (0 : Fin 2) * 13600 + 13600
    rw [e4]; show (i 0).val / 13600 * 13600 ≤ (i 0).val ∧ (i 0).val < (i 0).val / 13600 * 13600 + 13600; omega
  | ⟨1, _⟩ =>
    show win1_2.index ⟨(i 0).val / 13600, ht⟩ (1 : Fin 2) * 128 ≤ (i 1).val ∧ (i 1).val < win1_2.index ⟨(i 0).val / 13600, ht⟩ (1 : Fin 2) * 128 + 128
    rw [e5]; omega

/-- THE RESULT ARRAY after the launch: the operand times the column spread along the rows. -/
theorem final (c : Dev nD) : (dat1 (F := Ideal) V c).arrAt 2 cfg1.N = scaled (V c main_v44) (V c main_v34) :=
  (dat1 (F := Ideal) V c).arrAt_eq_of_cover 2 (scaled (V c main_v44) (V c main_v34)) (fun t _ => flushed_eq V c t) covered

end Cert.KernelIdeal.Scale1

end
-- ==== Proof.Scale2.lean ====
/-
  The second layer's message scaling: every row of an array multiplied by its own entry of a column, block of rows by block
  of rows.

  The launch walks 125 grid points; at point t it reads rows 13600·t … 13600·t + 13599 of the [1700000, 64] operand and the
  same rows of the [1700000, 1] column, and writes back, into the same rows of the result, each entry times the column's
  entry of its row. The 125 blocks tile the result, so after the launch the result array is, index by index, the operand
  times the column spread along the rows.
-/
import proofs.«172176_j11991548690480_1_alg».proof.Proof.Gen.KernelIdeal.Frame
import proofs.«172176_j11991548690480_1_alg».proof.Proof.LibColumn
import Idealize.ShloMosaic.Lib.Pipeline.Value
import Idealize.ShloMosaic.Lib.ValueIdx

set_option maxRecDepth 16384

noncomputable section

namespace Cert.KernelIdeal.Scale2

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem origin2 : (![0, 0] : Fin 2 → Nat) = fun _ => 0 := funext fun a => by fin_cases a <;> rfl

/-- The array the launch leaves: entry (p, q) of the operand times entry (p, 0) of the column. -/
def scaled (x : S1700000x64.Idx → EReal) (n : S1700000x1.Idx → EReal) : S1700000x64.Idx → EReal :=
  fun i => x i * n (ix2 (⟨(i 0).val, (i 0).isLt⟩ : Fin 1700000) (0 : Fin 1))

/-- The body's stored value at entry (p, q) of its block: the operand block's entry times the column block's entry of row p. -/
theorem stored_apply (n0 : Vec Ideal S13600x1 .f32) (x0 : Vec Ideal S13600x64 .f32) (p : Fin 13600) (q : Fin 64) :
    k4_pay1 (F := Ideal) n0 x0 (ix2 p q) = x0 (ix2 p q) * n0 (ix2 p (0 : Fin 1)) := by
  unfold k4_pay1
  simp only [shapeCast_self]
  rw [mulf_apply, Cert.Lib.broadcastTo_a1_ab_apply]

/-- Where the windows' blocks sit at grid point t: each window's block is the t-th block of rows. -/
theorem block_positions : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

variable (V : (c : Dev nD) → (b : Ref sig .tc) → Buf (Elt Ideal) ((c : Thread nD τ).loc b))

/-- What grid point t writes back is block t of `scaled` of the two arrays as the launch finds them. -/
theorem flushed_eq (c : Dev nD) (t : Fin cfg4.N) :
    (dat4 (F := Ideal) V c).flushed 2 t = ((cfg4.win 2).blk t).view.read (Elt Ideal) (scaled (V c main_v60) (V c main_v34)) := by
  show (cfg4.win 2).cut (grid4.coords t) ((dat4 V c).after 2 t) = _
  rw [after4_2]
  unfold out4_2
  rw [View.canon_unit_zero origin2]
  simp only [View.ld_unit_zero (S := S13600x64) origin2, View.ld_unit_zero (S := S13600x1) origin2]
  obtain ⟨e0, e1, e2, e3, e4, e5⟩ := block_positions t
  funext j
  obtain ⟨p, q, rfl⟩ : ∃ (p : Fin 13600) (q : Fin 64), j = ix2 p q := ⟨j 0, j 1, eq_ix2 j⟩
  refine (stored_apply (iblk4 V c 1 t) (iblk4 V c 0 t) p q).trans ?_
  show _ = scaled (V c main_v60) (V c main_v34) (((cfg4.win 2).blk t).view.emb (ix2 p q))
  unfold scaled
  refine congrArg₂ (α := EReal) (β := EReal) (γ := EReal) (· * ·) ?_ ?_
  · show V c main_v60 (((cfg4.win 0).blk t).view.emb (ix2 p q)) = V c main_v60 (((cfg4.win 2).blk t).view.emb (ix2 p q))
    refine congrArg _ ?_
    funext a; apply Fin.ext
    match a with
    | ⟨0, _⟩ => show win4_0.index t (0 : Fin 2) * 13600 + 1 * p.val = win4_2.index t (0 : Fin 2) * 13600 + 1 * p.val; omega
    | ⟨1, _⟩ => show win4_0.index t (1 : Fin 2) * 64 + 1 * q.val = win4_2.index t (1 : Fin 2) * 64 + 1 * q.val; omega
  · show V c main_v34 (((cfg4.win 1).blk t).view.emb (ix2 p (0 : Fin 1))) = V c main_v34 (ix2 (⟨((((cfg4.win 2).blk t).view.emb (ix2 p q)) 0).val, ((((cfg4.win 2).blk t).view.emb (ix2 p q)) 0).isLt⟩ : Fin 1700000) (0 : Fin 1))
    refine congrArg _ ?_
    funext a; apply Fin.ext
    match a with
    | ⟨0, _⟩ => show win4_1.index t (0 : Fin 2) * 13600 + 1 * p.val = win4_2.index t (0 : Fin 2) * 13600 + 1 * p.val; omega
    | ⟨1, _⟩ => show win4_1.index t (1 : Fin 2) * 1 + 1 * 0 = 0; omega

/-- An index of the result array lies in point t's block iff each coordinate lies in the block's range on its axis. -/
theorem mem_block (t : Fin cfg4.N) (i : S1700000x64.Idx) :
    i ∈ ((cfg4.win 2).blk t).view.set ↔ ∀ a : Fin 2, win4_2.index t a * S13600x64.size a ≤ (i a).val ∧ (i a).val < win4_2.index t a * S13600x64.size a + S13600x64.size a := by
  show i ∈ ((View.whole main_v61).slice (win4_2.rect t)).set ↔ _
  rw [View.set_slice_whole, Rect.mem_set_unit]
  exact Iff.rfl

/-- Row r of the result lies in the block of grid point r / 13600: the 125 blocks of 13600 rows tile the 1700000 rows. -/
theorem covered (i : S1700000x64.Idx) : ∃ t : Fin cfg4.N, (cfg4.win 2).flush t = true ∧ i ∈ ((cfg4.win 2).blk t).view.set := by
  have hi0 : (i 0).val < 1700000 := (i 0).isLt
  have hi1 : (i 1).val < 64 := (i 1).isLt
  have hN : grid4.N = 125 := N_4
  have ht : (i 0).val / 13600 < cfg4.N := by show (i 0).val / 13600 < grid4.N; rw [hN]; omega
  obtain ⟨e0, e1, e2, e3, e4, e5⟩ := block_positions ⟨(i 0).val / 13600, ht⟩
  refine ⟨⟨(i 0).val / 13600, ht⟩, flush4_2 _, ?_⟩
  rw [mem_block]
  intro a
  match a with
  | ⟨0, _⟩ =>
    show win4_2.index ⟨(i 0).val / 13600, ht⟩ (0 : Fin 2) * 13600 ≤ (i 0).val ∧ (i 0).val < win4_2.index ⟨(i 0).val / 13600, ht⟩ (0 : Fin 2) * 13600 + 13600
    rw [e4]; show (i 0).val / 13600 * 13600 ≤ (i 0).val ∧ (i 0).val < (i 0).val / 13600 * 13600 + 13600; omega
  | ⟨1, _⟩ =>
    show win4_2.index ⟨(i 0).val / 13600, ht⟩ (1 : Fin 2) * 64 ≤ (i 1).val ∧ (i 1).val < win4_2.index ⟨(i 0).val / 13600, ht⟩ (1 : Fin 2) * 64 + 64
    rw [e5]; omega

/-- THE RESULT ARRAY after the launch: the operand times the column spread along the rows. -/
theorem final (c : Dev nD) : (dat4 (F := Ideal) V c).arrAt 2 cfg4.N = scaled (V c main_v60) (V c main_v34) :=
  (dat4 (F := Ideal) V c).arrAt_eq_of_cover 2 (scaled (V c main_v60) (V c main_v34)) (fun t _ => flushed_eq V c t) covered

end Cert.KernelIdeal.Scale2

end
-- ==== Proof.BiasRelu.lean ====
/-
  The first layer's bias and rectifier: a bias row added to every row of an array and the result clipped below at zero,
  block of rows by block of rows.

  The launch walks 25 grid points; at point t it reads rows 4000·t … 4000·t + 3999 of the [100000, 128] operand and the
  whole [1, 128] bias row, and writes back, into the same rows of the result, the larger of zero and each entry plus the
  bias entry of its column. The 25 blocks tile the result, so after the launch the result array is, index by index,
  max (operand + bias row, 0).
-/
import proofs.«172176_j11991548690480_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.BiasRelu

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem origin2 : (![0, 0] : Fin 2 → Nat) = fun _ => 0 := funext fun a => by fin_cases a <;> rfl

/-- The array the launch leaves: the larger of zero and entry (p, q) of the operand plus entry (0, q) of the bias row. -/
def added (x : S100000x128.Idx → EReal) (b : S1x128.Idx → EReal) : S100000x128.Idx → EReal :=
  fun i => max (x i + b (ix2 (0 : Fin 1) (⟨(i 1).val, (i 1).isLt⟩ : Fin 128))) (Ideal.ofBits .f32 0x00000000#32)

/-- The body's stored value at entry (p, q) of its block: the larger of zero and the operand block's entry plus the bias
    row's entry of column q. -/
theorem stored_apply (x0 : Vec Ideal S4000x128 .f32) (x1 : Vec Ideal S1x128 .f32) (p : Fin 4000) (q : Fin 128) :
    k2_pay1 (F := Ideal) x0 x1 (ix2 p q) = max (x0 (ix2 p q) + x1 (ix2 (0 : Fin 1) q)) (Ideal.ofBits .f32 0x00000000#32) := by
  unfold k2_pay1
  simp only [shapeCast_self]
  rw [maximumf_apply, addf_apply, broadcastTo_1b_ab_apply]
  rfl

/-- Where the windows' blocks sit at grid point t: the operand's and the result's block is the t-th block of rows, the
    bias row's block is the whole row. -/
theorem block_positions : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What grid point t writes back is block t of `added` of the two arrays as the launch finds them. -/
theorem flushed_eq (c : Dev nD) (t : Fin cfg2.N) :
    (dat2 (F := Ideal) V c).flushed 2 t = ((cfg2.win 2).blk t).view.read (Elt Ideal) (added (V c main_v48) (V c main_v49)) := by
  show (cfg2.win 2).cut (grid2.coords t) ((dat2 V c).after 2 t) = _
  rw [after2_2]
  unfold out2_2
  rw [View.canon_unit_zero origin2]
  simp only [View.ld_unit_zero (S := S4000x128) origin2, View.ld_unit_zero (S := S1x128) origin2]
  obtain ⟨e0, e1, e2, e3, e4, e5⟩ := block_positions t
  funext j
  obtain ⟨p, q, rfl⟩ : ∃ (p : Fin 4000) (q : Fin 128), j = ix2 p q := ⟨j 0, j 1, eq_ix2 j⟩
  refine (stored_apply (iblk2 V c 0 t) (iblk2 V c 1 t) p q).trans ?_
  show _ = added (V c main_v48) (V c main_v49) (((cfg2.win 2).blk t).view.emb (ix2 p q))
  unfold added
  refine congrArg (fun z : EReal => max z (Ideal.ofBits .f32 0x00000000#32)) ?_
  refine congrArg₂ (α := EReal) (β := EReal) (γ := EReal) (· + ·) ?_ ?_
  · show V c main_v48 (((cfg2.win 0).blk t).view.emb (ix2 p q)) = V c main_v48 (((cfg2.win 2).blk t).view.emb (ix2 p q))
    refine congrArg _ ?_
    funext a; apply Fin.ext
    match a with
    | ⟨0, _⟩ => show win2_0.index t (0 : Fin 2) * 4000 + 1 * p.val = win2_2.index t (0 : Fin 2) * 4000 + 1 * p.val; omega
    | ⟨1, _⟩ => show win2_0.index t (1 : Fin 2) * 128 + 1 * q.val = win2_2.index t (1 : Fin 2) * 128 + 1 * q.val; omega
  · show V c main_v49 (((cfg2.win 1).blk t).view.emb (ix2 (0 : Fin 1) q)) = V c main_v49 (ix2 (0 : Fin 1) (⟨((((cfg2.win 2).blk t).view.emb (ix2 p q)) 1).val, ((((cfg2.win 2).blk t).view.emb (ix2 p q)) 1).isLt⟩ : Fin 128))
    refine congrArg _ ?_
    funext a; apply Fin.ext
    match a with
    | ⟨0, _⟩ => show win2_1.index t (0 : Fin 2) * 1 + 1 * 0 = 0; omega
    | ⟨1, _⟩ => show win2_1.index t (1 : Fin 2) * 128 + 1 * q.val = win2_2.index t (1 : Fin 2) * 128 + 1 * q.val; omega

/-- An index of the result array lies in point t's block iff each coordinate lies in the block's range on its axis. -/
theorem mem_block (t : Fin cfg2.N) (i : S100000x128.Idx) :
    i ∈ ((cfg2.win 2).blk t).view.set ↔ ∀ a : Fin 2, win2_2.index t a * S4000x128.size a ≤ (i a).val ∧ (i a).val < win2_2.index t a * S4000x128.size a + S4000x128.size a := by
  show i ∈ ((View.whole main_v50).slice (win2_2.rect t)).set ↔ _
  rw [View.set_slice_whole, Rect.mem_set_unit]
  exact Iff.rfl

/-- Row r of the result lies in the block of grid point r / 4000: the 25 blocks of 4000 rows tile the 100000 rows. -/
theorem covered (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : grid2.N = 25 := N_2
  have ht : (i 0).val / 4000 < cfg2.N := by show (i 0).val / 4000 < grid2.N; rw [hN]; omega
  obtain ⟨e0, e1, e2, e3, e4, e5⟩ := block_positions ⟨(i 0).val / 4000, ht⟩
  refine ⟨⟨(i 0).val / 4000, ht⟩, flush2_2 _, ?_⟩
  rw [mem_block]
  intro a
  match a with
  | ⟨0, _⟩ =>
    show win2_2.index ⟨(i 0).val / 4000, ht⟩ (0 : Fin 2) * 4000 ≤ (i 0).val ∧ (i 0).val < win2_2.index ⟨(i 0).val / 4000, ht⟩ (0 : Fin 2) * 4000 + 4000
    rw [e4]; show (i 0).val / 4000 * 4000 ≤ (i 0).val ∧ (i 0).val < (i 0).val / 4000 * 4000 + 4000; omega
  | ⟨1, _⟩ =>
    show win2_2.index ⟨(i 0).val / 4000, ht⟩ (1 : Fin 2) * 128 ≤ (i 1).val ∧ (i 1).val < win2_2.index ⟨(i 0).val / 4000, ht⟩ (1 : Fin 2) * 128 + 128
    rw [e5]; omega

/-- THE RESULT ARRAY after the launch: max (operand + bias row spread over the rows, 0). -/
theorem final (c : Dev nD) : (dat2 (F := Ideal) V c).arrAt 2 cfg2.N = added (V c main_v48) (V c main_v49) :=
  (dat2 (F := Ideal) V c).arrAt_eq_of_cover 2 (added (V c main_v48) (V c main_v49)) (fun t _ => flushed_eq V c t) covered

end Cert.KernelIdeal.BiasRelu

end
-- ==== Proof.BiasOut.lean ====
/-
  The last launch: a bias row added to every row of an array, block of rows by block of rows.

  The launch walks 25 grid points; at point t it reads rows 4000·t … 4000·t + 3999 of the [100000, 64] operand and the
  whole [1, 64] bias row, and writes back, into the same rows of the result, each entry plus the bias entry of its column.
  The 25 blocks tile the result, so after the launch the result array is, index by index, the operand plus the bias row
  spread over the rows.
-/
import proofs.«172176_j11991548690480_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.BiasOut

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem origin2 : (![0, 0] : Fin 2 → Nat) = fun _ => 0 := funext fun a => by fin_cases a <;> rfl

/-- The array the launch leaves: entry (p, q) of the operand plus entry (0, q) of the bias row. -/
def added (x : S100000x64.Idx → EReal) (b : S1x64.Idx → EReal) : S100000x64.Idx → EReal :=
  fun i => x i + b (ix2 (0 : Fin 1) (⟨(i 1).val, (i 1).isLt⟩ : Fin 64))

/-- The body's stored value at entry (p, q) of its block: the operand block's entry plus the bias row's entry of column q. -/
theorem stored_apply (x0 : Vec Ideal S4000x64 .f32) (x1 : Vec Ideal S1x64 .f32) (p : Fin 4000) (q : Fin 64) :
    k5_pay1 (F := Ideal) x0 x1 (ix2 p q) = x0 (ix2 p q) + x1 (ix2 (0 : Fin 1) q) := by
  unfold k5_pay1
  simp only [shapeCast_self]
  rw [addf_apply, broadcastTo_1b_ab_apply]

/-- Where the windows' blocks sit at grid point t: the operand's and the result's block is the t-th block of rows, the
    bias row's block is the whole row. -/
theorem block_positions : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

variable (V : (c : Dev nD) → (b : Ref sig .tc) → Buf (Elt Ideal) ((c : Thread nD τ).loc b))

/-- What grid point t writes back is block t of `added` of the two arrays as the launch finds them. -/
theorem flushed_eq (c : Dev nD) (t : Fin cfg5.N) :
    (dat5 (F := Ideal) V c).flushed 2 t = ((cfg5.win 2).blk t).view.read (Elt Ideal) (added (V c main_v64) (V c main_v65)) := by
  show (cfg5.win 2).cut (grid5.coords t) ((dat5 V c).after 2 t) = _
  rw [after5_2]
  unfold out5_2
  rw [View.canon_unit_zero origin2]
  simp only [View.ld_unit_zero (S := S4000x64) origin2, View.ld_unit_zero (S := S1x64) origin2]
  obtain ⟨e0, e1, e2, e3, e4, e5⟩ := block_positions t
  funext j
  obtain ⟨p, q, rfl⟩ : ∃ (p : Fin 4000) (q : Fin 64), j = ix2 p q := ⟨j 0, j 1, eq_ix2 j⟩
  refine (stored_apply (iblk5 V c 0 t) (iblk5 V c 1 t) p q).trans ?_
  show _ = added (V c main_v64) (V c main_v65) (((cfg5.win 2).blk t).view.emb (ix2 p q))
  unfold added
  refine congrArg₂ (α := EReal) (β := EReal) (γ := EReal) (· + ·) ?_ ?_
  · show V c main_v64 (((cfg5.win 0).blk t).view.emb (ix2 p q)) = V c main_v64 (((cfg5.win 2).blk t).view.emb (ix2 p q))
    refine congrArg _ ?_
    funext a; apply Fin.ext
    match a with
    | ⟨0, _⟩ => show win5_0.index t (0 : Fin 2) * 4000 + 1 * p.val = win5_2.index t (0 : Fin 2) * 4000 + 1 * p.val; omega
    | ⟨1, _⟩ => show win5_0.index t (1 : Fin 2) * 64 + 1 * q.val = win5_2.index t (1 : Fin 2) * 64 + 1 * q.val; omega
  · show V c main_v65 (((cfg5.win 1).blk t).view.emb (ix2 (0 : Fin 1) q)) = V c main_v65 (ix2 (0 : Fin 1) (⟨((((cfg5.win 2).blk t).view.emb (ix2 p q)) 1).val, ((((cfg5.win 2).blk t).view.emb (ix2 p q)) 1).isLt⟩ : Fin 64))
    refine congrArg _ ?_
    funext a; apply Fin.ext
    match a with
    | ⟨0, _⟩ => show win5_1.index t (0 : Fin 2) * 1 + 1 * 0 = 0; omega
    | ⟨1, _⟩ => show win5_1.index t (1 : Fin 2) * 64 + 1 * q.val = win5_2.index t (1 : Fin 2) * 64 + 1 * q.val; omega

/-- An index of the result array lies in point t's block iff each coordinate lies in the block's range on its axis. -/
theorem mem_block (t : Fin cfg5.N) (i : S100000x64.Idx) :
    i ∈ ((cfg5.win 2).blk t).view.set ↔ ∀ a : Fin 2, win5_2.index t a * S4000x64.size a ≤ (i a).val ∧ (i a).val < win5_2.index t a * S4000x64.size a + S4000x64.size a := by
  show i ∈ ((View.whole main_v66).slice (win5_2.rect t)).set ↔ _
  rw [View.set_slice_whole, Rect.mem_set_unit]
  exact Iff.rfl

/-- Row r of the result lies in the block of grid point r / 4000: the 25 blocks of 4000 rows tile the 100000 rows. -/
theorem covered (i : S100000x64.Idx) : ∃ t : Fin cfg5.N, (cfg5.win 2).flush t = true ∧ i ∈ ((cfg5.win 2).blk t).view.set := by
  have hi0 : (i 0).val < 100000 := (i 0).isLt
  have hi1 : (i 1).val < 64 := (i 1).isLt
  have hN : grid5.N = 25 := N_5
  have ht : (i 0).val / 4000 < cfg5.N := by show (i 0).val / 4000 < grid5.N; rw [hN]; omega
  obtain ⟨e0, e1, e2, e3, e4, e5⟩ := block_positions ⟨(i 0).val / 4000, ht⟩
  refine ⟨⟨(i 0).val / 4000, ht⟩, flush5_2 _, ?_⟩
  rw [mem_block]
  intro a
  match a with
  | ⟨0, _⟩ =>
    show win5_2.index ⟨(i 0).val / 4000, ht⟩ (0 : Fin 2) * 4000 ≤ (i 0).val ∧ (i 0).val < win5_2.index ⟨(i 0).val / 4000, ht⟩ (0 : Fin 2) * 4000 + 4000
    rw [e4]; show (i 0).val / 4000 * 4000 ≤ (i 0).val ∧ (i 0).val < (i 0).val / 4000 * 4000 + 4000; omega
  | ⟨1, _⟩ =>
    show win5_2.index ⟨(i 0).val / 4000, ht⟩ (1 : Fin 2) * 64 ≤ (i 1).val ∧ (i 1).val < win5_2.index ⟨(i 0).val / 4000, ht⟩ (1 : Fin 2) * 64 + 64
    rw [e5]; omega

/-- THE RESULT ARRAY after the launch: the operand plus the bias row spread over the rows. -/
theorem final (c : Dev nD) : (dat5 (F := Ideal) V c).arrAt 2 cfg5.N = added (V c main_v64) (V c main_v65) :=
  (dat5 (F := Ideal) V c).arrAt_eq_of_cover 2 (added (V c main_v64) (V c main_v65)) (fun t _ => flushed_eq V c t) covered

end Cert.KernelIdeal.BiasOut

end
-- ==== Proof.LibConcatCols.lean ====
/-
  Two arrays joined along their columns, read at an entry.

  For `x₁ : [R, A]` and `x₂ : [R, B]` joined along axis 1 into `[R, A + B]`, entry `(p, j)` with `j < A` is `x₁ (p, j)`
  and entry `(p, A + j)` is `x₂ (p, j)`.
-/
import Idealize.ShloMosaic.Lib.Pipeline.Value
import Idealize.ShloMosaic.Lib.ValueIdx

noncomputable section

namespace Cert.Lib

open Idealize.ShloMosaic Idealize.ShloMosaic.ValueIdx

variable {α : Type}

/-- ENTRY `(p, j)`, `j` in the first piece's columns: the first piece at `(p, j)`. -/
theorem concat_cols_left {R A B C : Nat} (x₁ : (⟨2, ![R, A]⟩ : Shape).Idx → α) (x₂ : (⟨2, ![R, B]⟩ : Shape).Idx → α)
    (h : Shape.Concatenates [⟨2, ![R, A]⟩, ⟨2, ![R, B]⟩] ⟨2, ![R, C]⟩ 1) (p : Fin R) (j : Fin A) (j' : Fin C) (hj : j'.val = j.val) :
    concatenate ⟨2, ![R, C]⟩ 1 [⟨⟨2, ![R, A]⟩, x₁⟩, ⟨⟨2, ![R, B]⟩, x₂⟩] h (ix2 p j') = x₁ (ix2 p j) :=
  concatenate_pair_apply_left 1 x₁ x₂ h (ix2 p j') rfl (ix2 p j) (fun b => by
    match b with
    | ⟨0, _⟩ => rfl
    | ⟨1, _⟩ => exact hj.symm)

/-- ENTRY `(p, A + j)`: the second piece at `(p, j)`. -/
theorem concat_cols_right {R A B C : Nat} (x₁ : (⟨2, ![R, A]⟩ : Shape).Idx → α) (x₂ : (⟨2, ![R, B]⟩ : Shape).Idx → α)
    (h : Shape.Concatenates [⟨2, ![R, A]⟩, ⟨2, ![R, B]⟩] ⟨2, ![R, C]⟩ 1) (p : Fin R) (j : Fin B) (j' : Fin C) (hj : j'.val = A + j.val) :
    concatenate ⟨2, ![R, C]⟩ 1 [⟨⟨2, ![R, A]⟩, x₁⟩, ⟨⟨2, ![R, B]⟩, x₂⟩] h (ix2 p j') = x₂ (ix2 p j) :=
  concatenate_pair_apply_right 1 x₁ x₂ h (ix2 p j') rfl rfl (ix2 p j) (fun b hb => by
    match b with
    | ⟨0, _⟩ => rfl
    | ⟨1, _⟩ => exact absurd rfl hb)
    (by show j.val + A = j'.val; omega)

end Cert.Lib

end
-- ==== Proof.Bridge.lean ====
/-
  The six launches, as the reference writes them.

  Each launch of the kernel program leaves an array that is one function of the arrays it finds (the modules Linear1,
  Scale1, BiasRelu, Linear2, Scale2, BiasOut). Here each of those functions, applied to the reference's own intermediate
  arrays, is shown to be the reference's next intermediate array, index by index over the extended reals:
  * a row scaled by its entry of a column is the product with the column spread along the rows;
  * a bias row added to every row (and clipped below at zero) is the sum with the row spread over the rows (and the
    maximum with the zero array);
  * two products over a weight cut in two are the one product of the operands joined side by side with the whole weight —
    a sum over 160 columns split at column 128; only commutativity and associativity of the sum are used, which hold on
    the extended reals, so no finiteness of the inputs is needed.
-/
import proofs.«172176_j11991548690480_1_alg».proof.Proof.RefReadP
import proofs.«172176_j11991548690480_1_alg».proof.Proof.Linear1
import proofs.«172176_j11991548690480_1_alg».proof.Proof.Linear2
import proofs.«172176_j11991548690480_1_alg».proof.Proof.Scale1
import proofs.«172176_j11991548690480_1_alg».proof.Proof.Scale2
import proofs.«172176_j11991548690480_1_alg».proof.Proof.BiasRelu
import proofs.«172176_j11991548690480_1_alg».proof.Proof.BiasOut
import proofs.«172176_j11991548690480_1_alg».proof.Proof.LibConcatCols
import Idealize.ShloMosaic.Lib.ValueLayout

set_option maxRecDepth 16384

noncomputable section

open scoped BigOperators

namespace Cert.Bridge

open Cert.ReferenceIdeal Cert.ReferenceIdeal.Gen Cert.ReferenceIdeal.ReadP
open Idealize.ShloMosaic Idealize.ShloMosaic.TcCoe Idealize.ShloMosaic.ValueIdx

/-- The layer's linear map, written as two products over the split weight, is the one product of the joined operand with
    the whole weight: the sum over the 160 joined columns is the sum over the first 128 plus the sum over the last 32, the
    joined operand's column k is the first operand's column k below 128 and the second operand's column k - 128 from there
    on, and rows 0 … 127 and 128 … 159 of the weight are the two blocks cut from it. -/
theorem linear1_eq (x0 : (⟨S100000x128, .f32⟩ : BufTy).Contents (Elt Ideal)) (x1 : (⟨S2x1600000, .i32⟩ : BufTy).Contents (Elt Ideal)) (x2 : (⟨S1600000x32, .f32⟩ : BufTy).Contents (Elt Ideal)) (x3 : (⟨S160x128, .f32⟩ : BufTy).Contents (Elt Ideal))
    (h1 : (⟨2, ![160, 128]⟩ : Shape).Slices ![0, 0] ⟨2, ![128, 128]⟩) (h2 : (⟨2, ![160, 128]⟩ : Shape).Slices ![128, 0] ⟨2, ![32, 128]⟩) :
    Cert.KernelIdeal.Linear1.combined x0 (val_main_v6 (F := Ideal) x1 x2)
        (extractStridedSlice ⟨2, ![128, 128]⟩ ![0, 0] x3 h1) (extractStridedSlice ⟨2, ![32, 128]⟩ ![128, 0] x3 h2)
      = val_main_v35 (F := Ideal) x0 x1 x2 x3 := by
  funext i
  obtain ⟨p, q, rfl⟩ : ∃ (p : Fin 100000) (q : Fin 128), i = ix2 p q := ⟨i 0, i 1, eq_ix2 i⟩
  rw [val_main_v35_apply]
  refine Eq.trans ?_ (Fin.sum_univ_add (a := 128) (b := 32)
    (fun k : Fin (128 + 32) => ((val_main_v34 (F := Ideal) x0 x1 x2) (lidx_main_v35 (ix2 p q) k) * x3 (ridx_main_v35 (ix2 p q) k) : EReal))).symm
  show (∑ k : Fin 128, x0 (ix2 p k) * extractStridedSlice ⟨2, ![128, 128]⟩ ![0, 0] x3 h1 (ix2 k q))
      + (∑ k : Fin 32, val_main_v6 (F := Ideal) x1 x2 (ix2 p k) * extractStridedSlice ⟨2, ![32, 128]⟩ ![128, 0] x3 h2 (ix2 k q)) = _
  refine congrArg₂ (α := EReal) (β := EReal) (γ := EReal) (· + ·) (Finset.sum_congr rfl fun k _ => ?_) (Finset.sum_congr rfl fun k _ => ?_)
  · have hk : k.val < 160 := by have := k.isLt; omega
    have el : lidx_main_v35 (ix2 p q) (Fin.castAdd 32 k) = ix2 p (⟨k.val, hk⟩ : Fin 160) :=
      funext fun a => Fin.ext (by match a with | ⟨0, _⟩ => rfl | ⟨1, _⟩ => rfl)
    have er : ridx_main_v35 (ix2 p q) (Fin.castAdd 32 k) = ix2 (⟨k.val, hk⟩ : Fin 160) q :=
      funext fun a => Fin.ext (by match a with | ⟨0, _⟩ => rfl | ⟨1, _⟩ => rfl)
    rw [el, er]
    refine congrArg₂ (α := EReal) (β := EReal) (γ := EReal) (· * ·) ?_ ?_
    · exact (Cert.Lib.concat_cols_left (R := 100000) (A := 128) (B := 32) (C := 160) x0 (val_main_v6 (F := Ideal) x1 x2)
        concatenates_S100000x128_S100000x32_S100000x160_d1 p k ⟨k.val, hk⟩ rfl).symm
    · exact slice2_axis0_apply (n0 := 160) (n1 := 128) (m := 128) 0 x3 h1 k q ⟨k.val, hk⟩ (Nat.zero_add _).symm
  · have hk : 128 + k.val < 160 := by have := k.isLt; omega
    have el : lidx_main_v35 (ix2 p q) (Fin.natAdd 128 k) = ix2 p (⟨128 + k.val, hk⟩ : Fin 160) :=
      funext fun a => Fin.ext (by match a with | ⟨0, _⟩ => rfl | ⟨1, _⟩ => rfl)
    have er : ridx_main_v35 (ix2 p q) (Fin.natAdd 128 k) = ix2 (⟨128 + k.val, hk⟩ : Fin 160) q :=
      funext fun a => Fin.ext (by match a with | ⟨0, _⟩ => rfl | ⟨1, _⟩ => rfl)
    rw [el, er]
    refine congrArg₂ (α := EReal) (β := EReal) (γ := EReal) (· * ·) ?_ ?_
    · exact (Cert.Lib.concat_cols_right (R := 100000) (A := 128) (B := 32) (C := 160) x0 (val_main_v6 (F := Ideal) x1 x2)
        concatenates_S100000x128_S100000x32_S100000x160_d1 p k ⟨128 + k.val, hk⟩ rfl).symm
    · exact slice2_axis0_apply (n0 := 160) (n1 := 128) (m := 32) 128 x3 h2 k q ⟨128 + k.val, hk⟩ rfl

/-- The first layer's scaled messages: the gathered rows times the norm column spread along the rows. -/
theorem scale1_eq (x0 : (⟨S100000x128, .f32⟩ : BufTy).Contents (Elt Ideal)) (x1 : (⟨S2x1600000, .i32⟩ : BufTy).Contents (Elt Ideal)) (x2 : (⟨S1600000x32, .f32⟩ : BufTy).Contents (Elt Ideal)) (x3 : (⟨S160x128, .f32⟩ : BufTy).Contents (Elt Ideal)) :
    Cert.KernelIdeal.Scale1.scaled (val_main_v42 (F := Ideal) x0 x1 x2 x3) (val_main_v43 (F := Ideal) x1) = val_main_v45 (F := Ideal) x0 x1 x2 x3 := by
  funext i
  have e : (ix2 (⟨(i 0).val, (i 0).isLt⟩ : Fin 1700000) (0 : Fin 1) : S1700000x1.Idx) = idx_main_v44 i :=
    funext fun a => Fin.ext (by match a with | ⟨0, _⟩ => rfl | ⟨1, _⟩ => rfl)
  rw [val_main_v45_apply, val_main_v44_apply, ← e]
  rfl

/-- The first layer's output: the aggregated messages plus the bias row spread over the rows, clipped below at zero. -/
theorem biasRelu_eq (x0 : (⟨S100000x128, .f32⟩ : BufTy).Contents (Elt Ideal)) (x1 : (⟨S2x1600000, .i32⟩ : BufTy).Contents (Elt Ideal)) (x2 : (⟨S1600000x32, .f32⟩ : BufTy).Contents (Elt Ideal)) (x3 : (⟨S160x128, .f32⟩ : BufTy).Contents (Elt Ideal)) (x4 : (⟨S128, .f32⟩ : BufTy).Contents (Elt Ideal)) :
    Cert.KernelIdeal.BiasRelu.added (val_main_v48 (F := Ideal) x0 x1 x2 x3) (val_main_v49 (F := Ideal) x4) = val_main_v52 (F := Ideal) x0 x1 x2 x3 x4 := by
  funext i
  have e : (ix2 (0 : Fin 1) (⟨(i 1).val, (i 1).isLt⟩ : Fin 128) : S1x128.Idx) = idx_main_v50 i :=
    funext fun a => Fin.ext (by match a with | ⟨0, _⟩ => rfl | ⟨1, _⟩ => rfl)
  rw [val_main_v52_apply, val_main_v51_apply, val_main_v50_apply, val_main_call1_v0_apply, ← e]
  rfl

/-- The layer's linear map, written as two products over the split weight, is the one product of the joined operand with
    the whole weight: the sum over the 160 joined columns is the sum over the first 128 plus the sum over the last 32, the
    joined operand's column k is the first operand's column k below 128 and the second operand's column k - 128 from there
    on, and rows 0 … 127 and 128 … 159 of the weight are the two blocks cut from it. -/
theorem linear2_eq (x0 : (⟨S100000x128, .f32⟩ : BufTy).Contents (Elt Ideal)) (x1 : (⟨S2x1600000, .i32⟩ : BufTy).Contents (Elt Ideal)) (x2 : (⟨S1600000x32, .f32⟩ : BufTy).Contents (Elt Ideal)) (x3 : (⟨S160x128, .f32⟩ : BufTy).Contents (Elt Ideal)) (x4 : (⟨S128, .f32⟩ : BufTy).Contents (Elt Ideal)) (x5 : (⟨S160x64, .f32⟩ : BufTy).Contents (Elt Ideal))
    (h1 : (⟨2, ![160, 64]⟩ : Shape).Slices ![0, 0] ⟨2, ![128, 64]⟩) (h2 : (⟨2, ![160, 64]⟩ : Shape).Slices ![128, 0] ⟨2, ![32, 64]⟩) :
    Cert.KernelIdeal.Linear2.combined (val_main_v52 (F := Ideal) x0 x1 x2 x3 x4) (val_main_v6 (F := Ideal) x1 x2)
        (extractStridedSlice ⟨2, ![128, 64]⟩ ![0, 0] x5 h1) (extractStridedSlice ⟨2, ![32, 64]⟩ ![128, 0] x5 h2)
      = val_main_v54 (F := Ideal) x0 x1 x2 x3 x4 x5 := by
  funext i
  obtain ⟨p, q, rfl⟩ : ∃ (p : Fin 100000) (q : Fin 64), i = ix2 p q := ⟨i 0, i 1, eq_ix2 i⟩
  rw [val_main_v54_apply]
  refine Eq.trans ?_ (Fin.sum_univ_add (a := 128) (b := 32)
    (fun k : Fin (128 + 32) => ((val_main_v53 (F := Ideal) x0 x1 x2 x3 x4) (lidx_main_v54 (ix2 p q) k) * x5 (ridx_main_v54 (ix2 p q) k) : EReal))).symm
  show (∑ k : Fin 128, (val_main_v52 (F := Ideal) x0 x1 x2 x3 x4) (ix2 p k) * extractStridedSlice ⟨2, ![128, 64]⟩ ![0, 0] x5 h1 (ix2 k q))
      + (∑ k : Fin 32, val_main_v6 (F := Ideal) x1 x2 (ix2 p k) * extractStridedSlice ⟨2, ![32, 64]⟩ ![128, 0] x5 h2 (ix2 k q)) = _
  refine congrArg₂ (α := EReal) (β := EReal) (γ := EReal) (· + ·) (Finset.sum_congr rfl fun k _ => ?_) (Finset.sum_congr rfl fun k _ => ?_)
  · have hk : k.val < 160 := by have := k.isLt; omega
    have el : lidx_main_v54 (ix2 p q) (Fin.castAdd 32 k) = ix2 p (⟨k.val, hk⟩ : Fin 160) :=
      funext fun a => Fin.ext (by match a with | ⟨0, _⟩ => rfl | ⟨1, _⟩ => rfl)
    have er : ridx_main_v54 (ix2 p q) (Fin.castAdd 32 k) = ix2 (⟨k.val, hk⟩ : Fin 160) q :=
      funext fun a => Fin.ext (by match a with | ⟨0, _⟩ => rfl | ⟨1, _⟩ => rfl)
    rw [el, er]
    refine congrArg₂ (α := EReal) (β := EReal) (γ := EReal) (· * ·) ?_ ?_
    · exact (Cert.Lib.concat_cols_left (R := 100000) (A := 128) (B := 32) (C := 160) (val_main_v52 (F := Ideal) x0 x1 x2 x3 x4) (val_main_v6 (F := Ideal) x1 x2)
        concatenates_S100000x128_S100000x32_S100000x160_d1 p k ⟨k.val, hk⟩ rfl).symm
    · exact slice2_axis0_apply (n0 := 160) (n1 := 64) (m := 128) 0 x5 h1 k q ⟨k.val, hk⟩ (Nat.zero_add _).symm
  · have hk : 128 + k.val < 160 := by have := k.isLt; omega
    have el : lidx_main_v54 (ix2 p q) (Fin.natAdd 128 k) = ix2 p (⟨128 + k.val, hk⟩ : Fin 160) :=
      funext fun a => Fin.ext (by match a with | ⟨0, _⟩ => rfl | ⟨1, _⟩ => rfl)
    have er : ridx_main_v54 (ix2 p q) (Fin.natAdd 128 k) = ix2 (⟨128 + k.val, hk⟩ : Fin 160) q :=
      funext fun a => Fin.ext (by match a with | ⟨0, _⟩ => rfl | ⟨1, _⟩ => rfl)
    rw [el, er]
    refine congrArg₂ (α := EReal) (β := EReal) (γ := EReal) (· * ·) ?_ ?_
    · exact (Cert.Lib.concat_cols_right (R := 100000) (A := 128) (B := 32) (C := 160) (val_main_v52 (F := Ideal) x0 x1 x2 x3 x4) (val_main_v6 (F := Ideal) x1 x2)
        concatenates_S100000x128_S100000x32_S100000x160_d1 p k ⟨128 + k.val, hk⟩ rfl).symm
    · exact slice2_axis0_apply (n0 := 160) (n1 := 64) (m := 32) 128 x5 h2 k q ⟨128 + k.val, hk⟩ rfl

/-- The second layer's scaled messages: the gathered rows times the same norm column spread along the rows. -/
theorem scale2_eq (x0 : (⟨S100000x128, .f32⟩ : BufTy).Contents (Elt Ideal)) (x1 : (⟨S2x1600000, .i32⟩ : BufTy).Contents (Elt Ideal)) (x2 : (⟨S1600000x32, .f32⟩ : BufTy).Contents (Elt Ideal)) (x3 : (⟨S160x128, .f32⟩ : BufTy).Contents (Elt Ideal)) (x4 : (⟨S128, .f32⟩ : BufTy).Contents (Elt Ideal)) (x5 : (⟨S160x64, .f32⟩ : BufTy).Contents (Elt Ideal)) :
    Cert.KernelIdeal.Scale2.scaled (val_main_v61 (F := Ideal) x0 x1 x2 x3 x4 x5) (val_main_v43 (F := Ideal) x1) = val_main_v64 (F := Ideal) x0 x1 x2 x3 x4 x5 := by
  funext i
  have e : (ix2 (⟨(i 0).val, (i 0).isLt⟩ : Fin 1700000) (0 : Fin 1) : S1700000x1.Idx) = idx_main_v63 i :=
    funext fun a => Fin.ext (by match a with | ⟨0, _⟩ => rfl | ⟨1, _⟩ => rfl)
  rw [val_main_v64_apply, val_main_v63_apply, ← e]
  rfl

/-- The result: the second layer's aggregated messages plus its bias row spread over the rows. -/
theorem biasOut_eq (x0 : (⟨S100000x128, .f32⟩ : BufTy).Contents (Elt Ideal)) (x1 : (⟨S2x1600000, .i32⟩ : BufTy).Contents (Elt Ideal)) (x2 : (⟨S1600000x32, .f32⟩ : BufTy).Contents (Elt Ideal)) (x3 : (⟨S160x128, .f32⟩ : BufTy).Contents (Elt Ideal)) (x4 : (⟨S128, .f32⟩ : BufTy).Contents (Elt Ideal)) (x5 : (⟨S160x64, .f32⟩ : BufTy).Contents (Elt Ideal)) (x6 : (⟨S64, .f32⟩ : BufTy).Contents (Elt Ideal)) :
    Cert.KernelIdeal.BiasOut.added (val_main_v67 (F := Ideal) x0 x1 x2 x3 x4 x5) (val_main_v68 (F := Ideal) x6) = val_main_v70 (F := Ideal) x0 x1 x2 x3 x4 x5 x6 := by
  funext i
  have e : (ix2 (0 : Fin 1) (⟨(i 1).val, (i 1).isLt⟩ : Fin 64) : S1x64.Idx) = idx_main_v69 i :=
    funext fun a => Fin.ext (by match a with | ⟨0, _⟩ => rfl | ⟨1, _⟩ => rfl)
  rw [val_main_v70_apply, val_main_v69_apply, ← e]
  rfl

end Cert.Bridge

end
-- ==== Proof.Boundaries.lean ====
/-
  The buffers' contents from the first launch to the last.

  Between launches the program gathers rows at the edges' sources, sums messages at the edges' targets and cuts the
  second weight; each launch replaces one array and leaves every other buffer alone. Boundary by boundary, each buffer a
  later step reads is shown to hold the reference's stage of the same name in the reference's program, applied to the
  kernel's own argument arrays: a carried buffer because nothing in between writes it, a host operation's result because
  it is the same operation of operands already identified, a launch's result by that launch's closed form and its
  identification with the reference's stage.
-/
import proofs.«172176_j11991548690480_1_alg».proof.Proof.Gen.KernelIdeal.Frame
import proofs.«172176_j11991548690480_1_alg».proof.Proof.RefReadP
import proofs.«172176_j11991548690480_1_alg».proof.Proof.Entry
import proofs.«172176_j11991548690480_1_alg».proof.Proof.Bridge
import proofs.«172176_j11991548690480_1_alg».proof.Proof.Linear1
import proofs.«172176_j11991548690480_1_alg».proof.Proof.Linear2
import proofs.«172176_j11991548690480_1_alg».proof.Proof.Scale1
import proofs.«172176_j11991548690480_1_alg».proof.Proof.Scale2
import proofs.«172176_j11991548690480_1_alg».proof.Proof.BiasRelu
import proofs.«172176_j11991548690480_1_alg».proof.Proof.BiasOut
import Idealize.ShloMosaic.Lib.StableHlo.Run

set_option maxRecDepth 16384

noncomputable section

namespace Cert.KernelIdeal.Boundaries

open Cert.KernelIdeal Cert.KernelIdeal.Gen Cert.ReferenceIdeal.ReadP
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ### Carried to boundary 4 -/
/-- An input array of the launch: it is left as entered. -/
theorem W4_v6 : W4 m ρ c (Proc.devRef .tc main_v6) = val_main_v6 (F := Ideal) (m ((c.tc : Thread nD τ).loc main_arg1)) (m ((c.tc : Thread nD τ).loc main_arg2)) :=
  ((W4_arr m ρ c 1).trans (((dat0 (V3 m ρ) c).arrAt_in 1 rfl _).trans (A_eq0 (V3 m ρ) c 1))).trans (Entry.W3_v6 m ρ c)
theorem W4_v8 : W4 m ρ c (Proc.devRef .tc main_v8) = val_main_v8 (F := Ideal) (m ((c.tc : Thread nD τ).loc main_arg1)) :=
  (W4_of_ne m ρ c main_v8 (by decide)).trans (Entry.W3_v8 m ρ c)
theorem W4_v9 : W4 m ρ c (Proc.devRef .tc main_v9) = val_main_v9 (F := Ideal) (m ((c.tc : Thread nD τ).loc main_arg1)) :=
  (W4_of_ne m ρ c main_v9 (by decide)).trans (Entry.W3_v9 m ρ c)
theorem W4_v34 : W4 m ρ c (Proc.devRef .tc main_v34) = val_main_v43 (F := Ideal) (m ((c.tc : Thread nD τ).loc main_arg1)) :=
  (W4_of_ne m ρ c main_v34 (by decide)).trans (Entry.W3_v34 m ρ c)
theorem W4_arg4 : W4 m ρ c (Proc.devRef .tc main_arg4) = (m ((c.tc : Thread nD τ).loc main_arg4)) :=
  (W4_of_ne m ρ c main_arg4 (by decide)).trans (Entry.W3_arg4 m ρ c)
theorem W4_arg5 : W4 m ρ c (Proc.devRef .tc main_arg5) = (m ((c.tc : Thread nD τ).loc main_arg5)) :=
  (W4_of_ne m ρ c main_arg5 (by decide)).trans (Entry.W3_arg5 m ρ c)
theorem W4_arg6 : W4 m ρ c (Proc.devRef .tc main_arg6) = (m ((c.tc : Thread nD τ).loc main_arg6)) :=
  (W4_of_ne m ρ c main_arg6 (by decide)).trans (Entry.W3_arg6 m ρ c)

/-- After the first launch: the first layer's linear map of the node features joined with the edge sums. -/
theorem W4_v37 : W4 m ρ c (Proc.devRef .tc main_v37) = val_main_v35 (F := Ideal) (m ((c.tc : Thread nD τ).loc main_arg0)) (m ((c.tc : Thread nD τ).loc main_arg1)) (m ((c.tc : Thread nD τ).loc main_arg2)) (m ((c.tc : Thread nD τ).loc main_arg3)) := by
  refine (W4_arr m ρ c 4).trans ?_
  refine (Linear1.final (V3 m ρ) c).trans ?_
  have e0 : V3 m ρ c main_arg0 = (m ((c.tc : Thread nD τ).loc main_arg0)) := Entry.W3_arg0 m ρ c
  have e1 : V3 m ρ c main_v6 = val_main_v6 (F := Ideal) (m ((c.tc : Thread nD τ).loc main_arg1)) (m ((c.tc : Thread nD τ).loc main_arg2)) := Entry.W3_v6 m ρ c
  have e2 : V3 m ρ c main_v35 = extractStridedSlice S128x128 ![0, 0] (m ((c.tc : Thread nD τ).loc main_arg3)) slices_S160x128_S128x128_0_0 := Entry.W3_v35 m ρ c
  have e3 : V3 m ρ c main_v36 = extractStridedSlice S32x128 ![128, 0] (m ((c.tc : Thread nD τ).loc main_arg3)) slices_S160x128_S32x128_128_0 := Entry.W3_v36 m ρ c
  rw [e0, e1, e2, e3]
  exact Cert.Bridge.linear1_eq _ _ _ _ _ _

/-! ### Carried to boundary 5 -/
theorem W5_v6 : W5 m ρ c (Proc.devRef .tc main_v6) = val_main_v6 (F := Ideal) (m ((c.tc : Thread nD τ).loc main_arg1)) (m ((c.tc : Thread nD τ).loc main_arg2)) := by
  show StableHlo.after hostOps1 (W4 m ρ c) (Proc.devRef .tc main_v6) = _
  after_results
  exact W4_v6 m ρ c
theorem W5_v8 : W5 m ρ c (Proc.devRef .tc main_v8) = val_main_v8 (F := Ideal) (m ((c.tc : Thread nD τ).loc main_arg1)) := by
  show StableHlo.after hostOps1 (W4 m ρ c) (Proc.devRef .tc main_v8) = _
  after_results
  exact W4_v8 m ρ c
theorem W5_v9 : W5 m ρ c (Proc.devRef .tc main_v9) = val_main_v9 (F := Ideal) (m ((c.tc : Thread nD τ).loc main_arg1)) := by
  show StableHlo.after hostOps1 (W4 m ρ c) (Proc.devRef .tc main_v9) = _
  after_results
  exact W4_v9 m ρ c
theorem W5_v34 : W5 m ρ c (Proc.devRef .tc main_v34) = val_main_v43 (F := Ideal) (m ((c.tc : Thread nD τ).loc main_arg1)) := by
  show StableHlo.after hostOps1 (W4 m ρ c) (Proc.devRef .tc main_v34) = _
  after_results
  exact W4_v34 m ρ c
theorem W5_arg4 : W5 m ρ c (Proc.devRef .tc main_arg4) = (m ((c.tc : Thread nD τ).loc main_arg4)) := by
  show StableHlo.after hostOps1 (W4 m ρ c) (Proc.devRef .tc main_arg4) = _
  after_results
  exact W4_arg4 m ρ c
theorem W5_arg5 : W5 m ρ c (Proc.devRef .tc main_arg5) = (m ((c.tc : Thread nD τ).loc main_arg5)) := by
  show StableHlo.after hostOps1 (W4 m ρ c) (Proc.devRef .tc main_arg5) = _
  after_results
  exact W4_arg5 m ρ c
theorem W5_arg6 : W5 m ρ c (Proc.devRef .tc main_arg6) = (m ((c.tc : Thread nD τ).loc main_arg6)) := by
  show StableHlo.after hostOps1 (W4 m ρ c) (Proc.devRef .tc main_arg6) = _
  after_results
  exact W4_arg6 m ρ c

/-- The first layer's rows gathered at the edges' sources. -/
theorem W5_v44 : W5 m ρ c (Proc.devRef .tc main_v44) = val_main_v42 (F := Ideal) (m ((c.tc : Thread nD τ).loc main_arg0)) (m ((c.tc : Thread nD τ).loc main_arg1)) (m ((c.tc : Thread nD τ).loc main_arg2)) (m ((c.tc : Thread nD τ).loc main_arg3)) := by
  show StableHlo.after hostOps1 (W4 m ρ c) (Proc.devRef .tc main_v44) = _
  after_results
  rw [W4_v37 m ρ c, W4_v8 m ρ c]
  rfl

/-! ### Carried to boundary 6 -/
theorem W6_v6 : W6 m ρ c (Proc.devRef .tc main_v6) = val_main_v6 (F := Ideal) (m ((c.tc : Thread nD τ).loc main_arg1)) (m ((c.tc : Thread nD τ).loc main_arg2)) :=
  (W6_of_ne m ρ c main_v6 (by decide)).trans (W5_v6 m ρ c)
theorem W6_v8 : W6 m ρ c (Proc.devRef .tc main_v8) = val_main_v8 (F := Ideal) (m ((c.tc : Thread nD τ).loc main_arg1)) :=
  (W6_of_ne m ρ c main_v8 (by decide)).trans (W5_v8 m ρ c)
theorem W6_v9 : W6 m ρ c (Proc.devRef .tc main_v9) = val_main_v9 (F := Ideal) (m ((c.tc : Thread nD τ).loc main_arg1)) :=
  (W6_of_ne m ρ c main_v9 (by decide)).trans (W5_v9 m ρ c)
/-- An input array of the launch: it is left as entered. -/
theorem W6_v34 : W6 m ρ c (Proc.devRef .tc main_v34) = val_main_v43 (F := Ideal) (m ((c.tc : Thread nD τ).loc main_arg1)) :=
  ((W6_arr m ρ c 1).trans (((dat1 (V5 m ρ) c).arrAt_in 1 rfl _).trans (A_eq1 (V5 m ρ) c 1))).trans (W5_v34 m ρ c)
theorem W6_arg4 : W6 m ρ c (Proc.devRef .tc main_arg4) = (m ((c.tc : Thread nD τ).loc main_arg4)) :=
  (W6_of_ne m ρ c main_arg4 (by decide)).trans (W5_arg4 m ρ c)
theorem W6_arg5 : W6 m ρ c (Proc.devRef .tc main_arg5) = (m ((c.tc : Thread nD τ).loc main_arg5)) :=
  (W6_of_ne m ρ c main_arg5 (by decide)).trans (W5_arg5 m ρ c)
theorem W6_arg6 : W6 m ρ c (Proc.devRef .tc main_arg6) = (m ((c.tc : Thread nD τ).loc main_arg6)) :=
  (W6_of_ne m ρ c main_arg6 (by decide)).trans (W5_arg6 m ρ c)

/-- After the second launch: the gathered rows scaled by the edges' normalisation. -/
theorem W6_v45 : W6 m ρ c (Proc.devRef .tc main_v45) = val_main_v45 (F := Ideal) (m ((c.tc : Thread nD τ).loc main_arg0)) (m ((c.tc : Thread nD τ).loc main_arg1)) (m ((c.tc : Thread nD τ).loc main_arg2)) (m ((c.tc : Thread nD τ).loc main_arg3)) := by
  refine (W6_arr m ρ c 2).trans ?_
  refine (Scale1.final (V5 m ρ) c).trans ?_
  have e0 : V5 m ρ c main_v44 = val_main_v42 (F := Ideal) (m ((c.tc : Thread nD τ).loc main_arg0)) (m ((c.tc : Thread nD τ).loc main_arg1)) (m ((c.tc : Thread nD τ).loc main_arg2)) (m ((c.tc : Thread nD τ).loc main_arg3)) := W5_v44 m ρ c
  have e1 : V5 m ρ c main_v34 = val_main_v43 (F := Ideal) (m ((c.tc : Thread nD τ).loc main_arg1)) := W5_v34 m ρ c
  rw [e0, e1]
  exact Cert.Bridge.scale1_eq _ _ _ _

/-! ### Carried to boundary 7 -/
theorem W7_v6 : W7 m ρ c (Proc.devRef .tc main_v6) = val_main_v6 (F := Ideal) (m ((c.tc : Thread nD τ).loc main_arg1)) (m ((c.tc : Thread nD τ).loc main_arg2)) := by
  show StableHlo.after hostOps2 (W6 m ρ c) (Proc.devRef .tc main_v6) = _
  after_results
  exact W6_v6 m ρ c
theorem W7_v8 : W7 m ρ c (Proc.devRef .tc main_v8) = val_main_v8 (F := Ideal) (m ((c.tc : Thread nD τ).loc main_arg1)) := by
  show StableHlo.after hostOps2 (W6 m ρ c) (Proc.devRef .tc main_v8) = _
  after_results
  exact W6_v8 m ρ c
theorem W7_v9 : W7 m ρ c (Proc.devRef .tc main_v9) = val_main_v9 (F := Ideal) (m ((c.tc : Thread nD τ).loc main_arg1)) := by
  show StableHlo.after hostOps2 (W6 m ρ c) (Proc.devRef .tc main_v9) = _
  after_results
  exact W6_v9 m ρ c
theorem W7_v34 : W7 m ρ c (Proc.devRef .tc main_v34) = val_main_v43 (F := Ideal) (m ((c.tc : Thread nD τ).loc main_arg1)) := by
  show StableHlo.after hostOps2 (W6 m ρ c) (Proc.devRef .tc main_v34) = _
  after_results
  exact W6_v34 m ρ c
theorem W7_arg5 : W7 m ρ c (Proc.devRef .tc main_arg5) = (m ((c.tc : Thread nD τ).loc main_arg5)) := by
  show StableHlo.after hostOps2 (W6 m ρ c) (Proc.devRef .tc main_arg5) = _
  after_results
  exact W6_arg5 m ρ c
theorem W7_arg6 : W7 m ρ c (Proc.devRef .tc main_arg6) = (m ((c.tc : Thread nD τ).loc main_arg6)) := by
  show StableHlo.after hostOps2 (W6 m ρ c) (Proc.devRef .tc main_arg6) = _
  after_results
  exact W6_arg6 m ρ c

/-- The scaled messages summed at the edges' targets, and the first bias as a row. -/
theorem W7_v48 : W7 m ρ c (Proc.devRef .tc main_v48) = val_main_v48 (F := Ideal) (m ((c.tc : Thread nD τ).loc main_arg0)) (m ((c.tc : Thread nD τ).loc main_arg1)) (m ((c.tc : Thread nD τ).loc main_arg2)) (m ((c.tc : Thread nD τ).loc main_arg3)) := by
  show StableHlo.after hostOps2 (W6 m ρ c) (Proc.devRef .tc main_v48) = _
  after_results
  rw [W6_v45 m ρ c, W6_v9 m ρ c]
  rfl
theorem W7_v49 : W7 m ρ c (Proc.devRef .tc main_v49) = val_main_v49 (F := Ideal) (m ((c.tc : Thread nD τ).loc main_arg4)) := by
  show StableHlo.after hostOps2 (W6 m ρ c) (Proc.devRef .tc main_v49) = _
  after_results
  rw [W6_arg4 m ρ c]
  rfl

/-! ### Carried to boundary 8 -/
theorem W8_v6 : W8 m ρ c (Proc.devRef .tc main_v6) = val_main_v6 (F := Ideal) (m ((c.tc : Thread nD τ).loc main_arg1)) (m ((c.tc : Thread nD τ).loc main_arg2)) :=
  (W8_of_ne m ρ c main_v6 (by decide)).trans (W7_v6 m ρ c)
theorem W8_v8 : W8 m ρ c (Proc.devRef .tc main_v8) = val_main_v8 (F := Ideal) (m ((c.tc : Thread nD τ).loc main_arg1)) :=
  (W8_of_ne m ρ c main_v8 (by decide)).trans (W7_v8 m ρ c)
theorem W8_v9 : W8 m ρ c (Proc.devRef .tc main_v9) = val_main_v9 (F := Ideal) (m ((c.tc : Thread nD τ).loc main_arg1)) :=
  (W8_of_ne m ρ c main_v9 (by decide)).trans (W7_v9 m ρ c)
theorem W8_v34 : W8 m ρ c (Proc.devRef .tc main_v34) = val_main_v43 (F := Ideal) (m ((c.tc : Thread nD τ).loc main_arg1)) :=
  (W8_of_ne m ρ c main_v34 (by decide)).trans (W7_v34 m ρ c)
theorem W8_arg5 : W8 m ρ c (Proc.devRef .tc main_arg5) = (m ((c.tc : Thread nD τ).loc main_arg5)) :=
  (W8_of_ne m ρ c main_arg5 (by decide)).trans (W7_arg5 m ρ c)
theorem W8_arg6 : W8 m ρ c (Proc.devRef .tc main_arg6) = (m ((c.tc : Thread nD τ).loc main_arg6)) :=
  (W8_of_ne m ρ c main_arg6 (by decide)).trans (W7_arg6 m ρ c)

/-- After the third launch: the first layer's output, bias added and clipped below at zero. -/
theorem W8_v50 : W8 m ρ c (Proc.devRef .tc main_v50) = val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W8_arr m ρ c 2).trans ?_
  refine (BiasRelu.final (V7 m ρ) c).trans ?_
  have e0 : V7 m ρ c main_v48 = val_main_v48 (F := Ideal) (m ((c.tc : Thread nD τ).loc main_arg0)) (m ((c.tc : Thread nD τ).loc main_arg1)) (m ((c.tc : Thread nD τ).loc main_arg2)) (m ((c.tc : Thread nD τ).loc main_arg3)) := W7_v48 m ρ c
  have e1 : V7 m ρ c main_v49 = val_main_v49 (F := Ideal) (m ((c.tc : Thread nD τ).loc main_arg4)) := W7_v49 m ρ c
  rw [e0, e1]
  exact Cert.Bridge.biasRelu_eq _ _ _ _ _

/-! ### Carried to boundary 9 -/
theorem W9_v6 : W9 m ρ c (Proc.devRef .tc main_v6) = val_main_v6 (F := Ideal) (m ((c.tc : Thread nD τ).loc main_arg1)) (m ((c.tc : Thread nD τ).loc main_arg2)) := by
  show StableHlo.after hostOps3 (W8 m ρ c) (Proc.devRef .tc main_v6) = _
  after_results
  exact W8_v6 m ρ c
theorem W9_v8 : W9 m ρ c (Proc.devRef .tc main_v8) = val_main_v8 (F := Ideal) (m ((c.tc : Thread nD τ).loc main_arg1)) := by
  show StableHlo.after hostOps3 (W8 m ρ c) (Proc.devRef .tc main_v8) = _
  after_results
  exact W8_v8 m ρ c
theorem W9_v9 : W9 m ρ c (Proc.devRef .tc main_v9) = val_main_v9 (F := Ideal) (m ((c.tc : Thread nD τ).loc main_arg1)) := by
  show StableHlo.after hostOps3 (W8 m ρ c) (Proc.devRef .tc main_v9) = _
  after_results
  exact W8_v9 m ρ c
theorem W9_v34 : W9 m ρ c (Proc.devRef .tc main_v34) = val_main_v43 (F := Ideal) (m ((c.tc : Thread nD τ).loc main_arg1)) := by
  show StableHlo.after hostOps3 (W8 m ρ c) (Proc.devRef .tc main_v34) = _
  after_results
  exact W8_v34 m ρ c
theorem W9_arg6 : W9 m ρ c (Proc.devRef .tc main_arg6) = (m ((c.tc : Thread nD τ).loc main_arg6)) := by
  show StableHlo.after hostOps3 (W8 m ρ c) (Proc.devRef .tc main_arg6) = _
  after_results
  exact W8_arg6 m ρ c

/-- The first layer's output carried over the cut of the second weight, and the two blocks cut from it. -/
theorem W9_v50 : W9 m ρ c (Proc.devRef .tc main_v50) = val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps3 (W8 m ρ c) (Proc.devRef .tc main_v50) = _
  after_results
  exact W8_v50 m ρ c
theorem W9_v51 : W9 m ρ c (Proc.devRef .tc main_v51) = extractStridedSlice S128x64 ![0, 0] (m ((c.tc : Thread nD τ).loc main_arg5)) slices_S160x64_S128x64_0_0 := by
  show StableHlo.after hostOps3 (W8 m ρ c) (Proc.devRef .tc main_v51) = _
  after_results
  rw [W8_arg5 m ρ c]
theorem W9_v52 : W9 m ρ c (Proc.devRef .tc main_v52) = extractStridedSlice S32x64 ![128, 0] (m ((c.tc : Thread nD τ).loc main_arg5)) slices_S160x64_S32x64_128_0 := by
  show StableHlo.after hostOps3 (W8 m ρ c) (Proc.devRef .tc main_v52) = _
  after_results
  rw [W8_arg5 m ρ c]

/-! ### Carried to boundary 10 -/
theorem W10_v8 : W10 m ρ c (Proc.devRef .tc main_v8) = val_main_v8 (F := Ideal) (m ((c.tc : Thread nD τ).loc main_arg1)) :=
  (W10_of_ne m ρ c main_v8 (by decide)).trans (W9_v8 m ρ c)
theorem W10_v9 : W10 m ρ c (Proc.devRef .tc main_v9) = val_main_v9 (F := Ideal) (m ((c.tc : Thread nD τ).loc main_arg1)) :=
  (W10_of_ne m ρ c main_v9 (by decide)).trans (W9_v9 m ρ c)
theorem W10_v34 : W10 m ρ c (Proc.devRef .tc main_v34) = val_main_v43 (F := Ideal) (m ((c.tc : Thread nD τ).loc main_arg1)) :=
  (W10_of_ne m ρ c main_v34 (by decide)).trans (W9_v34 m ρ c)
theorem W10_arg6 : W10 m ρ c (Proc.devRef .tc main_arg6) = (m ((c.tc : Thread nD τ).loc main_arg6)) :=
  (W10_of_ne m ρ c main_arg6 (by decide)).trans (W9_arg6 m ρ c)

/-- After the fourth launch: the second layer's linear map of the first layer's output joined with the edge sums. -/
theorem W10_v53 : W10 m ρ c (Proc.devRef .tc main_v53) = val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W10_arr m ρ c 4).trans ?_
  refine (Linear2.final (V9 m ρ) c).trans ?_
  have e0 : V9 m ρ c main_v50 = val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := W9_v50 m ρ c
  have e1 : V9 m ρ c main_v6 = val_main_v6 (F := Ideal) (m ((c.tc : Thread nD τ).loc main_arg1)) (m ((c.tc : Thread nD τ).loc main_arg2)) := W9_v6 m ρ c
  have e2 : V9 m ρ c main_v51 = extractStridedSlice S128x64 ![0, 0] (m ((c.tc : Thread nD τ).loc main_arg5)) slices_S160x64_S128x64_0_0 := W9_v51 m ρ c
  have e3 : V9 m ρ c main_v52 = extractStridedSlice S32x64 ![128, 0] (m ((c.tc : Thread nD τ).loc main_arg5)) slices_S160x64_S32x64_128_0 := W9_v52 m ρ c
  rw [e0, e1, e2, e3]
  exact Cert.Bridge.linear2_eq _ _ _ _ _ _ _ _

/-! ### Carried to boundary 11 -/
theorem W11_v9 : W11 m ρ c (Proc.devRef .tc main_v9) = val_main_v9 (F := Ideal) (m ((c.tc : Thread nD τ).loc main_arg1)) := by
  show StableHlo.after hostOps4 (W10 m ρ c) (Proc.devRef .tc main_v9) = _
  after_results
  exact W10_v9 m ρ c
theorem W11_v34 : W11 m ρ c (Proc.devRef .tc main_v34) = val_main_v43 (F := Ideal) (m ((c.tc : Thread nD τ).loc main_arg1)) := by
  show StableHlo.after hostOps4 (W10 m ρ c) (Proc.devRef .tc main_v34) = _
  after_results
  exact W10_v34 m ρ c
theorem W11_arg6 : W11 m ρ c (Proc.devRef .tc main_arg6) = (m ((c.tc : Thread nD τ).loc main_arg6)) := by
  show StableHlo.after hostOps4 (W10 m ρ c) (Proc.devRef .tc main_arg6) = _
  after_results
  exact W10_arg6 m ρ c

/-- The second layer's rows gathered at the edges' sources. -/
theorem W11_v60 : W11 m ρ c (Proc.devRef .tc main_v60) = val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show StableHlo.after hostOps4 (W10 m ρ c) (Proc.devRef .tc main_v60) = _
  after_results
  rw [W10_v53 m ρ c, W10_v8 m ρ c]
  rfl

/-! ### Carried to boundary 12 -/
theorem W12_v9 : W12 m ρ c (Proc.devRef .tc main_v9) = val_main_v9 (F := Ideal) (m ((c.tc : Thread nD τ).loc main_arg1)) :=
  (W12_of_ne m ρ c main_v9 (by decide)).trans (W11_v9 m ρ c)
theorem W12_arg6 : W12 m ρ c (Proc.devRef .tc main_arg6) = (m ((c.tc : Thread nD τ).loc main_arg6)) :=
  (W12_of_ne m ρ c main_arg6 (by decide)).trans (W11_arg6 m ρ c)

/-- After the fifth launch: the gathered rows scaled by the edges' normalisation. -/
theorem W12_v61 : W12 m ρ c (Proc.devRef .tc main_v61) = val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W12_arr m ρ c 2).trans ?_
  refine (Scale2.final (V11 m ρ) c).trans ?_
  have e0 : V11 m ρ c main_v60 = val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := W11_v60 m ρ c
  have e1 : V11 m ρ c main_v34 = val_main_v43 (F := Ideal) (m ((c.tc : Thread nD τ).loc main_arg1)) := W11_v34 m ρ c
  rw [e0, e1]
  exact Cert.Bridge.scale2_eq _ _ _ _ _ _

/-! ### The last stretch and the last launch -/

/-- The scaled messages summed at the edges' targets, and the second bias as a row. -/
theorem W13_v64 : W13 m ρ c (Proc.devRef .tc main_v64) = val_main_v67 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show StableHlo.after hostOps5 (W12 m ρ c) (Proc.devRef .tc main_v64) = _
  after_results
  rw [W12_v61 m ρ c, W12_v9 m ρ c]
  rfl
theorem W13_v65 : W13 m ρ c (Proc.devRef .tc main_v65) = val_main_v68 (F := Ideal) (m ((c.tc : Thread nD τ).loc main_arg6)) := by
  show StableHlo.after hostOps5 (W12 m ρ c) (Proc.devRef .tc main_v65) = _
  after_results
  rw [W12_arg6 m ρ c]
  rfl

/-- THE RESULT: after the sixth launch the result buffer holds the reference's last stage of the kernel's own arguments. -/
theorem W14_v66 : W14 m ρ c (Proc.devRef .tc main_v66) = val_main_v70 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W14_arr m ρ c 2).trans ?_
  refine (BiasOut.final (V13 m ρ) c).trans ?_
  have e0 : V13 m ρ c main_v64 = val_main_v67 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := W13_v64 m ρ c
  have e1 : V13 m ρ c main_v65 = val_main_v68 (F := Ideal) (m ((c.tc : Thread nD τ).loc main_arg6)) := W13_v65 m ρ c
  rw [e0, e1]
  exact Cert.Bridge.biasOut_eq _ _ _ _ _ _ _

end Cert.KernelIdeal.Boundaries

end
-- ==== Proof.lean ====
/-
  A two-layer graph convolution, as six grid launches among host operations, against its plain array-language reference.

  Both programs first sum the edge attributes at each edge's first endpoint, append one self loop per node to the source
  and target lists, count degrees, and give every edge the weight rsqrt(deg source) · rsqrt(deg target) (zero where a
  degree is zero). A layer then maps every node's row — its features joined with its edge sums — through a weight, gathers
  the mapped rows at the edges' sources, scales each by its edge's weight, sums them at the edges' targets and adds a bias;
  the first layer is clipped below at zero and feeds the second.

  The kernel program differs from the reference in three places per layer, each a grid launch over blocks of rows:
  * the linear map is x · W[0:128] + g · W[128:160] instead of (x ‖ g) · W — the same sum over 160 columns, split at 128;
  * the scaling by the edge weights and
  * the bias (and the clipping) are done block by block instead of on whole arrays.
  Over the extended reals a change of float format is the identity and a matrix product is the exact sum of exact
  products, so each launch leaves exactly the reference's next array (the modules Linear1/2, Scale1/2, BiasRelu, BiasOut
  and Bridge), every host operation in between is the reference's own operation of the same operands (Entry, Boundaries),
  and the two results are one array. Only commutativity and associativity of the sum are used: the finiteness of the
  inputs is not needed for the value, and the frames hold for every input.

  The three frames: the two kernel programs' are their launch-by-launch runs; the reference's is its run with the result
  dropped. The idealization rewrote no operation, so there is nothing to preserve.
-/
import proofs.«172176_j11991548690480_1_alg».proof.Defs
import proofs.«172176_j11991548690480_1_alg».proof.Proof.Gen.Kernel
import proofs.«172176_j11991548690480_1_alg».proof.Proof.Gen.Kernel.Skeleton
import proofs.«172176_j11991548690480_1_alg».proof.Proof.Gen.Kernel.Launch
import proofs.«172176_j11991548690480_1_alg».proof.Proof.Gen.Kernel.Points
import proofs.«172176_j11991548690480_1_alg».proof.Proof.Gen.Kernel.Frame
import proofs.«172176_j11991548690480_1_alg».proof.Proof.Gen.KernelIdeal
import proofs.«172176_j11991548690480_1_alg».proof.Proof.Gen.KernelIdeal.Skeleton
import proofs.«172176_j11991548690480_1_alg».proof.Proof.Gen.KernelIdeal.Launch
import proofs.«172176_j11991548690480_1_alg».proof.Proof.Gen.KernelIdeal.Points
import proofs.«172176_j11991548690480_1_alg».proof.Proof.Gen.KernelIdeal.Frame
import proofs.«172176_j11991548690480_1_alg».proof.Proof.Gen.ReferenceIdeal
import proofs.«172176_j11991548690480_1_alg».proof.Proof.Gen.Pre_finite_inputs
import proofs.«172176_j11991548690480_1_alg».proof.Proof.RefRunP
import proofs.«172176_j11991548690480_1_alg».proof.Proof.RefReadP
import proofs.«172176_j11991548690480_1_alg».proof.Proof.KernelRun
import proofs.«172176_j11991548690480_1_alg».proof.Proof.Boundaries
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run ends with its result at its composed term and the arguments unchanged; the frame keeps the second half. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the seven arguments, both programs end with the same result array: the reference's
    composed term of its arguments. The kernel's result buffer ends at the last boundary's contents, which is the
    reference's last stage of the kernel's arguments (`Boundaries.W14_v66`), and the arguments agree. -/
theorem algebraic : Cert.algebraic_KernelIdeal_ReferenceIdeal := by
  intro m ρ m' ρ' _ hagree
  refine ⟨fun c => Cert.ReferenceIdeal.ValueP.res_main_v70 m' c, ?_, Cert.ReferenceIdeal.ValueP.run (F := Ideal) m' ρ'⟩
  refine (θ_run Cert.KernelIdeal.defs _ _).mono (fun r h c => ⟨(h c).1.trans ?_, (h c).2⟩)
    (Cert.KernelIdeal.Result.run_result (F := Ideal) m ρ)
  obtain ⟨h0, h1, h2, h3, h4, h5, h6⟩ := hagree c
  rw [Cert.KernelIdeal.Boundaries.W14_v66 m ρ c]
  show _ = Cert.ReferenceIdeal.ValueP.res_main_v70 m' c
  rw [Cert.ReferenceIdeal.ReadP.val_main_v70_eq m' c, h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
